-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S16384x1 : Shape := ⟨2, ![16384, 1]⟩
abbrev S16x1x16384 : Shape := ⟨3, ![16, 1, 16384]⟩
abbrev S1024x512 : Shape := ⟨2, ![1024, 512]⟩
abbrev S1024x1 : Shape := ⟨2, ![1024, 1]⟩
abbrev S1x1x1024 : Shape := ⟨3, ![1, 1, 1024]⟩
abbrev S1024x1024 : Shape := ⟨2, ![1024, 1024]⟩
abbrev S1024 : Shape := ⟨1, ![1024]⟩
abbrev S1x1024 : Shape := ⟨2, ![1, 1024]⟩
abbrev S16x16384 : Shape := ⟨2, ![16, 16384]⟩
abbrev S_ : Shape := ⟨0, ![]⟩
abbrev S16384 : Shape := ⟨1, ![16384]⟩
abbrev S1x16384 : Shape := ⟨2, ![1, 16384]⟩

abbrev nBuf : Space → Nat
  | .hbm => 42
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S16384x1, .f32⟩
  | .hbm, ⟨5, _⟩ => ⟨S16x1x16384, .f32⟩
  | .hbm, ⟨6, _⟩ => ⟨S16x16384, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16x16384, .f32⟩
  | .hbm, ⟨11, _⟩ => ⟨S16x16384, .f32⟩
  | .hbm, ⟨12, _⟩ => ⟨S16x16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384, .f32⟩
  | .hbm, ⟨17, _⟩ => ⟨S16384x512, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1024x1, .f32⟩
  | .local _ .vmem, ⟨9, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_cst_10 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x16384_S16x16384 : S16x1x16384.ShapeCasts S16x16384
  reducesTo_S16x16384_S16384_d0 : S16x16384.ReducesTo [0] S16384
  h_S_ : 0 < S_.numel
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  reducesTo_S16384x512_S16384_d1 : S16384x512.ReducesTo [1] S16384
  bcast_S_S16384 : S_.BroadcastsInDim S16384 (![] : Fin 0 → Fin S16384.rank)
  reducesTo_S16384_S_d0 : S16384.ReducesTo [0] S_
  reducesTo_S16384x1_S_d0_1 : S16384x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .bf16 = 32 ∨ (Rect.block (s := S16384x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x16384.size a
  hwx0_3 : ∀ i : grid0.Coords, EltTy.bits .f32 = 32 ∨ (Rect.block (s := S16x1x16384) S1x1x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S512x16384 : Shape := ⟨2, ![512, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S1x16384 : Shape := ⟨2, ![1, 16384]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x16384, .f32⟩
  | .hbm, ⟨3, _⟩ => ⟨S16384x16384, .f32⟩
  | .hbm, ⟨4, _⟩ => ⟨S_, .f32⟩
  | .hbm, ⟨5, _⟩ => ⟨S16384x16384, .f32⟩
  | .hbm, ⟨6, _⟩ => ⟨S16384x16384, .f32⟩
  | .hbm, ⟨7, _⟩ => ⟨S16384, .i32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x1, .f32⟩
  | .hbm, ⟨21, _⟩ => ⟨S16384x16384, .f32⟩
  | .hbm, ⟨22, _⟩ => ⟨S16384x16384, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x1, .i32⟩
  | .hbm, ⟨39, _⟩ => ⟨S16384x2, .i32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S1x16384, .f32⟩
  | .hbm, ⟨52, _⟩ => ⟨S16384x16384, .f32⟩
  | .hbm, ⟨53, _⟩ => ⟨S16384x16384, .f32⟩
  | .hbm, ⟨54, _⟩ => ⟨S16384x16384, .f32⟩
  | .hbm, ⟨55, _⟩ => ⟨S_, .f32⟩
  | .hbm, ⟨56, _⟩ => ⟨S16384, .f32⟩
  | .hbm, ⟨57, _⟩ => ⟨S1x16384, .f32⟩
  | .hbm, ⟨58, _⟩ => ⟨S1x16384, .f32⟩
  | .hbm, ⟨59, _⟩ => ⟨S16384x16384, .f32⟩
  | .hbm, ⟨60, _⟩ => ⟨S16384x16384, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S16384x1, .i32⟩
  | .hbm, ⟨77, _⟩ => ⟨S16384x2, .i32⟩
  | .hbm, ⟨78, _⟩ => ⟨S16384, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_call1_cst_0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_cst_1 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_c_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_7 : Ref sig .tc := ⟨.hbm, 68, rfl⟩
abbrev main_v29 : Ref sig .tc := ⟨.hbm, 69, rfl⟩
abbrev main_v30 : Ref sig .tc := ⟨.hbm, 70, rfl⟩
abbrev main_c_8 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_9 : Ref sig .tc := ⟨.hbm, 79, rfl⟩
abbrev main_v38 : Ref sig .tc := ⟨.hbm, 80, rfl⟩
abbrev main_cst_10 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_11 : Ref sig .tc := ⟨.hbm, 85, rfl⟩
abbrev main_v42 : Ref sig .tc := ⟨.hbm, 86, rfl⟩

abbrev nD : Nat := 1
abbrev τ : Topo := Topo.v7x

variable {F : FTy → Type} [FloatOps F]

class Facts₀ : Prop where
  transposes_S16384x512_S512x16384_1_0 : S16384x512.Transposes [1, 0] S512x16384
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  concatenates_S16384x1_S16384x1_S16384x2_d1 : Shape.Concatenates [S16384x1, S16384x1] S16384x2 1
  reducesTo_S16384_S_d0 : S16384.ReducesTo [0] S_
  reducesTo_S16384x16384_S16384_d0 : S16384x16384.ReducesTo [0] S16384
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  dot_S16384x512_S512x16384_S16384x16384_1_0_0_1_n_n_wf : DotDims.WF S16384x512 S512x16384 S16384x16384 [1] [0] [0] [1] [] []
  gather_S16384x16384_S16384x2_S16384_n_01_n_n_01_1_11_wf : GatherDims.WF S16384x16384 S16384x2 S16384 [] [0, 1] [] [0, 1] [] 1 ![1, 1]

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf
def gather_S16384x16384_S16384x2_S16384_n_01_n_n_01_1_11 : GatherDims S16384x16384 S16384x2 S16384 where
  offsetDims := []
  collapsedSliceDims := [0, 1]
  operandBatchingDims := []
  startIndicesBatchingDims := []
  startIndexMap := [0, 1]
  indexVectorDim := 1
  sliceSizes := ![1, 1]
  wf := gather_S16384x16384_S16384x2_S16384_n_01_n_n_01_1_11_wf

class Facts : Prop extends Facts₀ where

variable [Facts]
-- ==== Proof.KPieces.lean ====
import proofs.«160572_j54692113547585_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What one grid point of the fused log-sum-exp kernel leaves behind, as pure functions of what it found.

    The body keeps two per-row columns across the column tiles of one row tile: the running shift (a running maximum)
    and the running sum of shifted exponentials. At the first column tile it resets them to −∞ and 0 and then updates
    them; at a middle tile it only updates them; at the last tile it also writes shift + log sum to the row output. At
    every point it writes the column tile's own log-sum-exp over the rows of the row tile. Each of these stores covers
    its whole buffer, so what the buffer holds afterwards is the stored value, a function of the two input blocks and
    (except at the first tile) of the two columns as the point before left them. -/

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first column tile: reset, then update -/

theorem sout_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S1024x512 .bf16) :
    sout0_A_0 c i arg2 harg2 arg3 harg3 arg4 harg4 arg5 harg5 arg6 harg6 arg7 harg7 hc0 hc1 x0 x1 = k0_pay7 x0 x1 (k0_pay2 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem sout_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S1024x512 .bf16) :
    sout0_A_1 c i arg2 harg2 arg3 harg3 arg4 harg4 arg5 harg5 arg6 harg6 arg7 harg7 hc0 hc1 x0 x1 = k0_pay6 x0 x1 (k0_pay2 (F := F)) (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem out_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S1024x512 .bf16) :
    out0_A_3 c i arg2 harg2 arg3 harg3 arg4 harg4 arg5 harg5 arg6 harg6 arg7 harg7 hc0 hc1 x0 x1 = k0_pay1 (k0_pay4 x0 x1) := by
  unfold out0_A_3
  rw [View.read_writes_eq_canon _ _ _ (cover0_A_3 c i arg2 harg2 arg3 harg3 arg4 harg4 arg5 harg5 arg6 harg6 arg7 harg7 hc0 hc1 x0 x1)]
  unfold kernelRun0_A
  dsimp only
  try sl_unfold_words
  rw [View.canon_unit_zero hz3]
  simp only [View.readAt_eq_ld, harg2.read_unread, harg3.read_unread,
    View.ld_unit_zero (S := S1024x512) hz2]

/-! ## A middle column tile: update -/

theorem sout_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S1024x512 .bf16) (xs0 : Vec F S1024x1 .f32) (xs1 : Vec F S1024x1 .f32) :
    sout0_B_0 c i arg2 harg2 arg3 harg3 arg4 harg4 arg5 harg5 arg6 harg6 arg7 harg7 hc0 hc1 x0 x1 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem sout_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S1024x512 .bf16) (xs0 : Vec F S1024x1 .f32) (xs1 : Vec F S1024x1 .f32) :
    sout0_B_1 c i arg2 harg2 arg3 harg3 arg4 harg4 arg5 harg5 arg6 harg6 arg7 harg7 hc0 hc1 x0 x1 xs0 xs1 = k0_pay6 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem out_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S1024x512 .bf16) (xs0 : Vec F S1024x1 .f32) (xs1 : Vec F S1024x1 .f32) :
    out0_B_3 c i arg2 harg2 arg3 harg3 arg4 harg4 arg5 harg5 arg6 harg6 arg7 harg7 hc0 hc1 x0 x1 xs0 xs1 = k0_pay1 (k0_pay4 x0 x1) := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  try sl_unfold_words
  rw [View.canon_unit_zero hz3]
  simp only [View.readAt_eq_ld, harg2.read_unread, harg3.read_unread,
    View.ld_unit_zero (S := S1024x512) hz2]

/-! ## The last column tile: update, then write the row output -/

theorem sout_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S1024x512 .bf16) (xs0 : Vec F S1024x1 .f32) (xs1 : Vec F S1024x1 .f32) :
    sout0_C_0 c i arg2 harg2 arg3 harg3 arg4 harg4 arg5 harg5 arg6 harg6 arg7 harg7 hc0 hc1 x0 x1 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem sout_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S1024x512 .bf16) (xs0 : Vec F S1024x1 .f32) (xs1 : Vec F S1024x1 .f32) :
    sout0_C_1 c i arg2 harg2 arg3 harg3 arg4 harg4 arg5 harg5 arg6 harg6 arg7 harg7 hc0 hc1 x0 x1 xs0 xs1 = k0_pay6 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem out_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S1024x512 .bf16) (xs0 : Vec F S1024x1 .f32) (xs1 : Vec F S1024x1 .f32) :
    out0_C_2 c i arg2 harg2 arg3 harg3 arg4 harg4 arg5 harg5 arg6 harg6 arg7 harg7 hc0 hc1 x0 x1 xs0 xs1 = k0_pay8 (k0_pay7 x0 x1 xs0) (k0_pay6 x0 x1 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  try sl_unfold_words
  first
    | rw [View.canon_cons_unit_zero (S := S1024x1) hz2]
    | rw [View.canon_unit_zero hz2]
  simp only [View.readCov_unit_zero (S := S1024x1) _ hz2, View.readAt_eq_ld, harg2.read_unread, harg3.read_unread,
    harg6.read_unread, harg7.read_unread, View.ld_unit_zero (S := S1024x512) hz2, View.ld_unit_zero (S := S1024x1) hz2]

theorem out_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S1024x512 .bf16) (xs0 : Vec F S1024x1 .f32) (xs1 : Vec F S1024x1 .f32) :
    out0_C_3 c i arg2 harg2 arg3 harg3 arg4 harg4 arg5 harg5 arg6 harg6 arg7 harg7 hc0 hc1 x0 x1 xs0 xs1 = k0_pay1 (k0_pay4 x0 x1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  try sl_unfold_words
  rw [View.canon_unit_zero hz3]
  simp only [View.readAt_eq_ld, harg2.read_unread, harg3.read_unread,
    View.ld_unit_zero (S := S1024x512) hz2]

end Cert.KernelIdeal.KV

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.LibRowSoftmax.lean ====
/- Row maxima and the softmax of a row, as a kernel and as a host program compute them, read at an index.

   For a row r of finitely many extended reals and a starting value z, `maxFrom z r` is the largest of z and the
   entries of r, and `softmaxFrom z r j = exp (r j - maxFrom z r) / Σ_k exp (r k - maxFrom z r)`.
   A kernel takes the maximum (and the sum) of every row of an [a, b] matrix as a vector of length a, re-lays
   it as an [a, 1] column and spreads the column over the row; a host program reduces the last axis of an
   [n, a, b] stack.  Read at an index, each is `maxFrom` (or the plain sum) of that row, so the kernel's
   subtract-exponentiate-normalise chain is `softmaxFrom` of the row, entry by entry. -/
import Idealize.ShloMosaic.Lib.Pipeline.Value
import Idealize.ShloMosaic.Lib.ValueIdx
import Idealize.ShloMosaic.PureOps.Ideal.Laws
import proofs.«160572_j54692113547585_2_alg».proof.Proof.LibColumn

noncomputable section

namespace Cert.LibRowSoftmax

open Idealize.ShloMosaic Idealize.ShloMosaic.ValueIdx

/-- The largest of `z` and the entries of a row. -/
def maxFrom {b : ℕ} (z : EReal) (r : Fin b → EReal) : EReal := (Finset.univ : Finset (Fin b)).fold max z r

/-- The starting value is below the maximum taken from it. -/
theorem le_maxFrom {b : ℕ} (z : EReal) (r : Fin b → EReal) : z ≤ maxFrom z r :=
  (Finset.le_fold_max z).mpr (Or.inl le_rfl)

/-- Taking the larger of the starting value and the maximum taken from it changes nothing. -/
theorem max_maxFrom {b : ℕ} (z : EReal) (r : Fin b → EReal) : max z (maxFrom z r) = maxFrom z r :=
  max_eq_right (le_maxFrom z r)

/-- The softmax of a row, its entries centred at their maximum taken from `z`. -/
def softmaxFrom {b : ℕ} (z : EReal) (r : Fin b → EReal) (j : Fin b) : EReal :=
  Ideal.div (Ideal.exp (r j - maxFrom z r)) (∑ k : Fin b, Ideal.exp (r k - maxFrom z r))

/-! ## A kernel's reductions along the rows of an [a, b] matrix -/

/-- Row p with column k put back is entry (p, k). -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The maximum over each row, at row p: the largest of the accumulator's value and the row's entries. -/
theorem multiReduction_max_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p) = maxFrom (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (lift_row h p k)))

/-- The sum over each row, at row p. -/
theorem multiReduction_add_row {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The kernel's chain on an f32 [a, b] matrix: the row maxima from -inf as a column spread over the rows,
    subtracted; the exponential; the row sums from zero likewise; the quotient. -/
def rowSoftmax {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩) :
    FVec Ideal ⟨2, ![a, b]⟩ .f32 :=
  divf
    (exp (subf e (broadcastTo ⟨2, ![a, b]⟩ (shapeCast ⟨2, ![a, 1]⟩
      (multiReduction .maximumf [1] ⟨1, ![a]⟩ e 0xFF800000#32 hR (.inl rfl) rfl) hC) hB)))
    (broadcastTo ⟨2, ![a, b]⟩ (shapeCast ⟨2, ![a, 1]⟩
      (multiReduction .add [1] ⟨1, ![a]⟩
        (exp (subf e (broadcastTo ⟨2, ![a, b]⟩ (shapeCast ⟨2, ![a, 1]⟩
          (multiReduction .maximumf [1] ⟨1, ![a]⟩ e 0xFF800000#32 hR (.inl rfl) rfl) hC) hB)))
        0x00000000#32 hR (.inl rfl) rfl) hC) hB)

/-- Entry (p, c) of the kernel's chain is the softmax of row p at c. -/
theorem rowSoftmax_apply {a b : ℕ} (e : FVec Ideal ⟨2, ![a, b]⟩ .f32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (p : Fin a) (c : Fin b) :
    rowSoftmax e hR hC hB (ix2 p c) = softmaxFrom (Ideal.ofBits .f32 0xFF800000#32) (fun k => e (ix2 p k)) c := by
  have hm : ∀ c' : Fin b, broadcastTo ⟨2, ![a, b]⟩ (shapeCast ⟨2, ![a, 1]⟩
      (multiReduction .maximumf [1] ⟨1, ![a]⟩ e 0xFF800000#32 hR (.inl rfl) rfl) hC) hB (ix2 p c')
      = maxFrom (Ideal.ofBits .f32 0xFF800000#32) (fun k => e (ix2 p k)) := fun c' =>
    (Cert.LibColumn.broadcastTo_shapeCast_column_apply _ hC hB p c').trans (multiReduction_max_row e _ hR _ _ p)
  have hs : ∀ (u : FVec Ideal ⟨2, ![a, b]⟩ .f32), broadcastTo ⟨2, ![a, b]⟩ (shapeCast ⟨2, ![a, 1]⟩
      (multiReduction .add [1] ⟨1, ![a]⟩ u 0x00000000#32 hR (.inl rfl) rfl) hC) hB (ix2 p c)
      = ∑ k : Fin b, u (ix2 p k) := fun u =>
    (Cert.LibColumn.broadcastTo_shapeCast_column_apply _ hC hB p c).trans (multiReduction_add_row u _ hR _ _ p)
  unfold rowSoftmax softmaxFrom
  refine (divf_apply _ _ _).trans ?_
  rw [hs]
  simp only [exp, subf, Ideal.exp_def, Ideal.subf_def, hm]

/-! ## A host program's reduction along the last axis of an [n, a, b] stack -/

/-- Row (d, p) with position k put back is entry (d, p, k). -/
theorem lift_row3 {n a b : ℕ} (h : (⟨3, ![n, a, b]⟩ : Shape).Reduces [2] ⟨2, ![n, a]⟩) (d : Fin n) (p : Fin a) (k : Fin b) :
    h.lift (ix2 d p) k = ix3 d p k :=
  funext fun c => Fin.ext (by match c with | ⟨0, _⟩ => rfl | ⟨1, _⟩ => rfl | ⟨2, _⟩ => rfl)

/-- The host's maximum along the last axis, at row (d, p): the largest of the initial value and the row's entries. -/
theorem hostReduce_max_row3 {n a b : ℕ} {u : Shape} (x : (⟨3, ![n, a, b]⟩ : Shape).Idx → Ideal .f32) (init : u.Idx → Ideal .f32)
    (h' : (⟨3, ![n, a, b]⟩ : Shape).ReducesTo [2] ⟨2, ![n, a]⟩) (h : (⟨3, ![n, a, b]⟩ : Shape).Reduces [2] ⟨2, ![n, a]⟩)
    (hu : 0 < u.numel) (d : Fin n) (p : Fin a) :
    Host.reduce FloatOps.maximumf x init h' hu (ix2 d p) = maxFrom (init (Shape.Idx.first hu)) (fun k => x (ix3 d p k)) :=
  (Host.reduce_eq_fold_single FloatOps.maximumf x init h' h hu (ix2 d p)).trans
    (congrArg (fun f => (Finset.univ : Finset (Fin b)).fold max (init (Shape.Idx.first hu)) f)
      (funext fun k => congrArg x (lift_row3 h d p k)))

end Cert.LibRowSoftmax

end
-- ==== Proof.LibColReduce.lean ====
/- Column maxima and column sums of an [a, b] matrix, as a kernel computes them, read at an index.

   A kernel that reduces each COLUMN of an [a, b] matrix to one number keeps the result as a vector of length b.
   Read at column q, a maximum-reduction down the rows is the largest of the accumulator's value and the column's
   entries, and an add-reduction is the column's plain sum. -/
import Idealize.ShloMosaic.Lib.Pipeline.Value
import Idealize.ShloMosaic.Lib.ValueIdx
import Idealize.ShloMosaic.PureOps.Ideal.Laws

noncomputable section

namespace Cert.LibColReduce

open Idealize.ShloMosaic Idealize.ShloMosaic.ValueIdx

/-- Column q with row p put back is entry (p, q). -/
theorem lift_col {a b : ℕ} (h : (⟨2, ![a, b]⟩ : Shape).Reduces [0] ⟨1, ![b]⟩) (q : Fin b) (p : Fin a) :
    h.lift (ix1 q) p = ix2 p q :=
  funext fun c => Fin.ext (by match c with | ⟨0, _⟩ => rfl | ⟨1, _⟩ => rfl)

/-- The maximum down each column, at column q: the largest of the accumulator's value and the column's entries. -/
theorem multiReduction_max_col {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ v acc h hφ hacc (ix1 q)
      = (Finset.univ : Finset (Fin a)).fold max (Ideal.ofBits φ acc) (fun p => v (ix2 p q)) :=
  (Ideal.multiReduction_maximumf_single v acc h hφ hacc (ix1 q)).trans
    (congrArg (fun f => (Finset.univ : Finset (Fin a)).fold max (Ideal.ofBits φ acc) f)
      (funext fun p => congrArg v (lift_col h q p)))

/-- The sum down each column, at column q. -/
theorem multiReduction_add_col {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ v acc h hφ hacc (ix1 q) = ∑ p : Fin a, v (ix2 p q) :=
  (Ideal.multiReduction_add_single v acc h hφ hacc (ix1 q)).trans
    (Finset.sum_congr rfl fun p _ => congrArg v (lift_col h q p))

/-- The f32 word of −∞ reads −∞. -/
theorem ofBits_neg_inf_f32 : Ideal.ofBits .f32 0xFF800000#32 = (⊥ : EReal) := by
  simp [Ideal.ofBits, Ideal.ieee]

end Cert.LibColReduce

end
-- ==== Proof.KPayload.lean ====
import proofs.«160572_j54692113547585_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«160572_j54692113547585_2_alg».proof.Proof.LibColumn
import proofs.«160572_j54692113547585_2_alg».proof.Proof.LibRowSoftmax
import proofs.«160572_j54692113547585_2_alg».proof.Proof.LibColReduce

set_option pp.maxSteps 20000
set_option pp.deepTerms false

noncomputable section

open Idealize.ShloMosaic Idealize.ShloMosaic.TcCoe Idealize.SL.Sem
open Idealize.ShloMosaic.Pipeline (Dat)

/-! The arithmetic of one grid point, read entry by entry on the extended reals.

    With s(p, q) = Σ_k x0(p, k) · x1(q, k) the score of row p of the image block against row q of the text block:
    the new running shift of row p is max(old shift, max_q s(p, q)); the new running sum is
    old sum · exp(old shift − new shift) + Σ_q exp(s(p, q) − new shift); the row output is shift + log sum; and the
    column output at q is c + log Σ_p exp(s(p, q) − c) with c = max_p s(p, q). -/

namespace Cert.KernelIdeal.KV

open Cert.KernelIdeal Cert.KernelIdeal.Gen Idealize.ShloMosaic.ValueIdx
open Cert.LibRowSoftmax (maxFrom)

/-- The score of row p of the first block against row q of the second. -/
def sc (x0 x1 : FVec Ideal S1024x512 .bf16) (p q : Fin 1024) : EReal := ∑ k : Fin 512, x0 (ix2 p k) * x1 (ix2 q k)

theorem lhs_row (i : S1024x1024.Idx) (qq : dot_S1024x512_S1024x512_S1024x1024_1_1_0_0_n_n.contr.Idx) : (dot_S1024x512_S1024x512_S1024x1024_1_1_0_0_n_n.lhsIdx i qq 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

theorem rhs_row (i : S1024x1024.Idx) (qq : dot_S1024x512_S1024x512_S1024x1024_1_1_0_0_n_n.contr.Idx) : (dot_S1024x512_S1024x512_S1024x1024_1_1_0_0_n_n.rhsIdx i qq 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

theorem pay4_apply (x0 x1 : FVec Ideal S1024x512 .bf16) (p q : Fin 1024) :
    k0_pay4 (F := Ideal) x0 x1 (ix2 p q) = sc x0 x1 p q := by
  unfold k0_pay4 sc
  rw [shapeCast_self, shapeCast_self]
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (dot_S1024x512_S1024x512_S1024x1024_1_1_0_0_n_n.rhsIdx_val_of_single rfl _ _).trans hk)
  rw [el, er]

/-- The running shift after the point: the larger of the old shift and the largest score of the row. -/
theorem pay5_apply (x0 x1 : FVec Ideal S1024x512 .bf16) (v10 : FVec Ideal S1024x1 .f32) (p : Fin 1024) :
    k0_pay5 (F := Ideal) x0 x1 v10 (ix2 p (0 : Fin 1))
      = max (v10 (ix2 p (0 : Fin 1))) (maxFrom ⊥ (fun q => sc x0 x1 p q)) := by
  unfold k0_pay5
  refine (maximumf_apply _ _ _).trans ?_
  refine congrArg (max (v10 (ix2 p (0 : Fin 1)))) ?_
  refine (Cert.LibColumn.shapeCast_a_a1_apply _ _ p 0).trans ?_
  refine (Cert.LibRowSoftmax.multiReduction_max_row _ _ _ _ _ p).trans ?_
  rw [Cert.LibColReduce.ofBits_neg_inf_f32]
  exact congrArg (maxFrom ⊥) (funext fun q => pay4_apply x0 x1 p q)

theorem pay7_eq (x0 x1 : FVec Ideal S1024x512 .bf16) (v10 : FVec Ideal S1024x1 .f32) :
    k0_pay7 (F := Ideal) x0 x1 v10 = k0_pay5 (F := Ideal) x0 x1 v10 := by
  unfold k0_pay7
  exact shapeCast_self _ _

/-- The running sum after the point. -/
theorem pay6_apply (x0 x1 : FVec Ideal S1024x512 .bf16) (v10 v12 v18 : FVec Ideal S1024x1 .f32) (p : Fin 1024) :
    k0_pay6 (F := Ideal) x0 x1 v10 v12 v18 (ix2 p (0 : Fin 1))
      = v18 (ix2 p (0 : Fin 1)) * Ideal.exp (v12 (ix2 p (0 : Fin 1)) - k0_pay5 (F := Ideal) x0 x1 v10 (ix2 p (0 : Fin 1)))
        + ∑ q : Fin 1024, Ideal.exp (sc x0 x1 p q - k0_pay5 (F := Ideal) x0 x1 v10 (ix2 p (0 : Fin 1))) := by
  unfold k0_pay6
  rw [shapeCast_self]
  refine (addf_apply _ _ _).trans ?_
  refine congrArg₂ (· + ·) rfl ?_
  refine (Cert.LibColumn.shapeCast_a_a1_apply _ _ p 0).trans ?_
  refine (Cert.LibRowSoftmax.multiReduction_add_row _ _ _ _ _ p).trans ?_
  refine Finset.sum_congr rfl fun q _ => ?_
  show Ideal.exp (k0_pay4 (F := Ideal) x0 x1 (ix2 p q) - broadcastTo S1024x1024 (k0_pay5 (F := Ideal) x0 x1 v10) _ (ix2 p q)) = _
  rw [pay4_apply, Cert.LibColumn.broadcastTo_a1_ab_apply]

/-- The row output: shift plus the logarithm of the sum. -/
theorem pay8_apply (v43 v44 : FVec Ideal S1024x1 .f32) (i : S1024x1.Idx) :
    k0_pay8 (F := Ideal) v43 v44 i = v43 i + Ideal.log (v44 i) := rfl

/-- The reset values: −∞ for the shift, 0 for the sum. -/
theorem pay2_apply (i : S1024x1.Idx) : k0_pay2 (F := Ideal) i = (⊥ : EReal) := by
  unfold k0_pay2
  rw [shapeCast_self]
  exact Cert.LibColReduce.ofBits_neg_inf_f32

theorem pay3_apply (i : S1024x1.Idx) : k0_pay3 (F := Ideal) i = (0 : EReal) := by
  unfold k0_pay3
  rw [shapeCast_self]
  exact Ideal.ofBits_zero_f32

/-- The column output at column q: with c the largest score of the column, c + log Σ_p exp (s(p, q) − c). -/
theorem pay1_apply (v7 : FVec Ideal S1024x1024 .f32) (u v : Fin 1) (q : Fin 1024) :
    k0_pay1 (F := Ideal) v7 (ix3 u v q)
      = (Finset.univ : Finset (Fin 1024)).fold max (⊥ : EReal) (fun p => v7 (ix2 p q))
        + Ideal.log (∑ p : Fin 1024, Ideal.exp (v7 (ix2 p q)
            - (Finset.univ : Finset (Fin 1024)).fold max (⊥ : EReal) (fun p => v7 (ix2 p q)))) := by
  unfold k0_pay1
  refine (shapeCast_ab_1ab_apply _ _ u v q).trans ?_
  refine (addf_apply _ _ _).trans ?_
  have hmax : ∀ (v' : Fin 1), shapeCast S1x1024 (multiReduction .maximumf [0] S1024 v7 0xFF800000#32 reduces_S1024x1024_S1024_2 (.inl rfl) rfl) shapeCasts_S1024_S1x1024 (ix2 v' q)
      = (Finset.univ : Finset (Fin 1024)).fold max (⊥ : EReal) (fun p => v7 (ix2 p q)) := fun v' => by
    refine (shapeCast_a_1a_apply _ _ v' q).trans ?_
    refine (Cert.LibColReduce.multiReduction_max_col v7 _ _ _ _ q).trans ?_
    rw [Cert.LibColReduce.ofBits_neg_inf_f32]
  refine congrArg₂ (· + ·) (hmax v) ?_
  show Ideal.log (shapeCast S1x1024 _ shapeCasts_S1024_S1x1024 (ix2 v q)) = _
  refine congrArg Ideal.log ?_
  refine (shapeCast_a_1a_apply _ _ v q).trans ?_
  refine (Cert.LibColReduce.multiReduction_add_col _ _ _ _ _ q).trans ?_
  refine Finset.sum_congr rfl fun p _ => ?_
  show Ideal.exp (v7 (ix2 p q) - broadcastTo S1024x1024 _ broadcasts_S1x1024_S1024x1024 (ix2 p q)) = _
  rw [broadcastTo_1b_ab_apply, hmax 0]

end Cert.KernelIdeal.KV

end
-- ==== Proof.LibLogSumExp.lean ====
/-
  Log-sum-exp on the extended reals, at the exact ("Ideal") reading of exp, log and log1p.

  For finitely many REAL numbers x_j the quantity  M + log Σ_j exp (x_j − M)  does not depend on the real shift M:
  it is log Σ_j exp x_j.  Three consequences, each stated with the shift left arbitrary (so a row maximum never has
  to be identified, only known to be a real number):

  * `lse_shift`          M + log Σ_{j∈s} exp (x_j − M) = log Σ_{j∈s} exp x_j;
  * `lse_exclude`        with L = log Σ_{j∈s} exp x_j and i ∈ s:  L + log1p (0 − exp (x_i − L)) = log Σ_{j∈s, j≠i} exp x_j
                          (removing one term from a log-sum-exp: 1 − e^{x_i}/S = S'/S);
  * `log_softmax_masked` the log-softmax of the row whose i-th entry is replaced by −∞, read at p ≠ i:
                          (y_p − M) − log Σ_{j∈s} exp (y_j − M) = x_p − log Σ_{j∈s, j≠i} exp x_j   (exp (−∞) = 0).

  `row_eq` joins the last two: "score minus the log-sum-exp with the diagonal term removed analytically" equals "the
  masked log-softmax entry".
-/
import Idealize.ShloMosaic.PureOps.Ideal
import Mathlib.Analysis.SpecialFunctions.Log.Basic
import Mathlib.Data.EReal.Operations

noncomputable section

namespace Cert.Lib.LogSumExp

open Idealize.ShloMosaic

variable {ι : Type*}

/-- The inclusion of the reals in the extended reals commutes with finite sums. -/
theorem coe_finsum (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The exponential of a difference of two reals. -/
theorem exp_coe_sub (x M : ℝ) : Ideal.exp ((x : EReal) - (M : EReal)) = ((Real.exp (x - M) : ℝ) : EReal) := by
  rw [← EReal.coe_sub, Ideal.exp_coe]

/-- A sum of shifted exponentials is a real number. -/
theorem sum_exp_shift (s : Finset ι) (x : ι → ℝ) (M : ℝ) :
    ∑ j ∈ s, Ideal.exp ((x j : EReal) - (M : EReal)) = ((∑ j ∈ s, Real.exp (x j - M) : ℝ) : EReal) := by
  rw [coe_finsum]; exact Finset.sum_congr rfl fun j _ => exp_coe_sub (x j) M

/-- The shift factors out of the sum: Σ e^{x_j − M} = e^{−M} · Σ e^{x_j}. -/
theorem real_sum_exp_shift (s : Finset ι) (x : ι → ℝ) (M : ℝ) :
    ∑ j ∈ s, Real.exp (x j - M) = Real.exp (-M) * ∑ j ∈ s, Real.exp (x j) := by
  rw [Finset.mul_sum]
  exact Finset.sum_congr rfl fun j _ => by rw [sub_eq_add_neg, Real.exp_add, mul_comm]

/-- A nonempty sum of exponentials is positive. -/
theorem sum_exp_pos (s : Finset ι) (hs : s.Nonempty) (x : ι → ℝ) : 0 < ∑ j ∈ s, Real.exp (x j) :=
  Finset.sum_pos (fun j _ => Real.exp_pos _) hs

/-- The logarithm of a sum of shifted exponentials: log Σ e^{x_j − M} = −M + log Σ e^{x_j}. -/
theorem log_sum_exp_shift (s : Finset ι) (hs : s.Nonempty) (x : ι → ℝ) (M : ℝ) :
    Ideal.log (∑ j ∈ s, Ideal.exp ((x j : EReal) - (M : EReal)))
      = ((-M + Real.log (∑ j ∈ s, Real.exp (x j)) : ℝ) : EReal) := by
  have hpos := sum_exp_pos s hs x
  have hpos' : 0 < ∑ j ∈ s, Real.exp (x j - M) := by
    rw [real_sum_exp_shift]; exact mul_pos (Real.exp_pos _) hpos
  rw [sum_exp_shift, Ideal.log_coe, if_neg (not_le.mpr hpos'), real_sum_exp_shift,
    Real.log_mul (Real.exp_pos _).ne' hpos.ne', Real.log_exp]

/-- Log-sum-exp does not depend on the real shift. -/
theorem lse_shift (s : Finset ι) (hs : s.Nonempty) (x : ι → ℝ) (M : ℝ) :
    (M : EReal) + Ideal.log (∑ j ∈ s, Ideal.exp ((x j : EReal) - (M : EReal)))
      = ((Real.log (∑ j ∈ s, Real.exp (x j)) : ℝ) : EReal) := by
  rw [log_sum_exp_shift s hs x M, ← EReal.coe_add]
  congr 1; ring

/-- Removing the i-th term from a log-sum-exp: with S = Σ_{j∈s} e^{x_j}, L = log S and S' = S − e^{x_i},
    L + log (1 + (0 − e^{x_i − L})) = log S', because 1 − e^{x_i}/S = S'/S. -/
theorem lse_exclude [DecidableEq ι] (s : Finset ι) (i : ι) (hi : i ∈ s) (hs' : (s.erase i).Nonempty) (x : ι → ℝ) :
    ((Real.log (∑ j ∈ s, Real.exp (x j)) : ℝ) : EReal)
        + Ideal.log1p ((0 : EReal) - Ideal.exp ((x i : EReal) - ((Real.log (∑ j ∈ s, Real.exp (x j)) : ℝ) : EReal)))
      = ((Real.log (∑ j ∈ s.erase i, Real.exp (x j)) : ℝ) : EReal) := by
  have hS := sum_exp_pos s ⟨i, hi⟩ x
  have hS' := sum_exp_pos (s.erase i) hs' x
  have hsplit : Real.exp (x i) + ∑ j ∈ s.erase i, Real.exp (x j) = ∑ j ∈ s, Real.exp (x j) :=
    Finset.add_sum_erase s (fun j => Real.exp (x j)) hi
  set S := ∑ j ∈ s, Real.exp (x j) with hSdef
  set S' := ∑ j ∈ s.erase i, Real.exp (x j) with hS'def
  have he : Real.exp (x i - Real.log S) = Real.exp (x i) / S := by
    rw [Real.exp_sub, Real.exp_log hS]
  have hq : (1 : ℝ) + (0 - Real.exp (x i - Real.log S)) = S' / S := by
    rw [he]; field_simp; linarith
  have hqpos : 0 < (1 : ℝ) + (0 - Real.exp (x i - Real.log S)) := by rw [hq]; exact div_pos hS' hS
  rw [exp_coe_sub, Ideal.log1p, ← EReal.coe_zero, ← EReal.coe_sub, ← EReal.coe_one, ← EReal.coe_add,
    Ideal.log_coe, if_neg (not_le.mpr hqpos), ← EReal.coe_add, hq, Real.log_div hS'.ne' hS.ne']
  congr 1; ring

/-- The masked log-softmax entry: the row y with y_i = −∞ and y_j = x_j elsewhere, shifted by any real M, at p ≠ i. -/
theorem log_softmax_masked [DecidableEq ι] (s : Finset ι) (i p : ι) (hi : i ∈ s) (hp : p ∈ s) (hpi : p ≠ i)
    (x : ι → ℝ) (M : ℝ) :
    ((if p = i then (⊥ : EReal) else (x p : EReal)) - (M : EReal))
        - Ideal.log (∑ j ∈ s, Ideal.exp ((if j = i then (⊥ : EReal) else (x j : EReal)) - (M : EReal)))
      = (x p : EReal) - ((Real.log (∑ j ∈ s.erase i, Real.exp (x j)) : ℝ) : EReal) := by
  have hs' : (s.erase i).Nonempty := ⟨p, Finset.mem_erase.mpr ⟨hpi, hp⟩⟩
  have hsum : ∑ j ∈ s, Ideal.exp ((if j = i then (⊥ : EReal) else (x j : EReal)) - (M : EReal))
      = ∑ j ∈ s.erase i, Ideal.exp ((x j : EReal) - (M : EReal)) := by
    rw [← Finset.add_sum_erase s _ hi, if_pos rfl, EReal.bot_sub, Ideal.exp_bot, zero_add]
    exact Finset.sum_congr rfl fun j hj => by rw [if_neg (Finset.mem_erase.mp hj).1]
  rw [hsum, log_sum_exp_shift (s.erase i) hs' x M, if_neg hpi, ← EReal.coe_sub, ← EReal.coe_sub, ← EReal.coe_sub]
  congr 1; ring

/-- One row of the loss, two ways: the score at p minus the log-sum-exp over all columns with the i-th term removed
    analytically (any real shift M for the full log-sum-exp), and the log-softmax of the row masked at i, read at p
    (any real shift M'). Both are x_p − log Σ_{j≠i} e^{x_j}. -/
theorem row_eq [DecidableEq ι] (s : Finset ι) (i p : ι) (hi : i ∈ s) (hp : p ∈ s) (hpi : p ≠ i) (x : ι → ℝ) (M M' : ℝ) :
    (x p : EReal)
        - (((M : EReal) + Ideal.log (∑ j ∈ s, Ideal.exp ((x j : EReal) - (M : EReal))))
            + Ideal.log1p ((0 : EReal) - Ideal.exp ((x i : EReal)
                - ((M : EReal) + Ideal.log (∑ j ∈ s, Ideal.exp ((x j : EReal) - (M : EReal)))))))
      = ((if p = i then (⊥ : EReal) else (x p : EReal)) - (M' : EReal))
        - Ideal.log (∑ j ∈ s, Ideal.exp ((if j = i then (⊥ : EReal) else (x j : EReal)) - (M' : EReal))) := by
  have hs' : (s.erase i).Nonempty := ⟨p, Finset.mem_erase.mpr ⟨hpi, hp⟩⟩
  rw [lse_shift s ⟨i, hi⟩ x M, lse_exclude s i hi hs' x, log_softmax_masked s i p hi hp hpi x M']

end Cert.Lib.LogSumExp

end
-- ==== Proof.LibBlockSum.lean ====
/-
  A finite sum evaluated in blocks of consecutive indices.

  In a commutative monoid, for a block width B and a number of blocks n:
    * the sum over the first B * n natural numbers is the sum over t < n of the sums over the B numbers from B * t on;
    * so a sum over an index type with B * n elements is the sum of its n blocks' sums;
    * and a sum over B indices whose r-th entry is entry B * t + r of a family is that family's block t.
  The blocks' sums added one after the other (the blocks 0 .. n, then block n + 1) are the library's sum over a range
  with one more element. Only associativity and commutativity of addition are used, so all of this holds on the
  extended reals with no finiteness condition: it is the law that joins an accumulation over K-blocks (a matrix
  product cut along its contracted axis and accumulated block by block) to the whole sum.
-/
import Mathlib.Algebra.BigOperators.Fin
import Mathlib.Algebra.BigOperators.Intervals

namespace Cert.LibBlockSum

variable {M : Type*} [AddCommMonoid M]

/-- The sum over the first B * n natural numbers is the sum, block by block, of n blocks of B consecutive numbers. -/
theorem sum_range_blocks (g : ℕ → M) (B : ℕ) :
    ∀ n, ∑ k ∈ Finset.range (B * n), g k = ∑ t ∈ Finset.range n, ∑ r ∈ Finset.range B, g (B * t + r)
  | 0 => by simp
  | n + 1 => by
    rw [Nat.mul_succ, Finset.sum_range_add, sum_range_blocks g B n, Finset.sum_range_succ]

/-- A family indexed by N indices, continued by zero to every natural number. -/
def total {N : ℕ} (f : Fin N → M) (k : ℕ) : M := if h : k < N then f ⟨k, h⟩ else 0

theorem total_val {N : ℕ} (f : Fin N → M) (k : Fin N) : total f k.val = f k := dif_pos k.isLt

theorem total_of_lt {N : ℕ} (f : Fin N → M) (k : ℕ) (h : k < N) : total f k = f ⟨k, h⟩ := dif_pos h

/-- The sum of block t of width B: the B indices from B * t on. -/
def block {N : ℕ} (B : ℕ) (f : Fin N → M) (t : ℕ) : M := ∑ r : Fin B, total f (B * t + r.val)

/-- A sum over B * n indices is the sum of its n blocks of width B. -/
theorem sum_eq_blocks {N : ℕ} (B n : ℕ) (hN : N = B * n) (f : Fin N → M) :
    ∑ k, f k = ∑ t ∈ Finset.range n, block B f t := by
  subst hN
  have e : ∑ k, f k = ∑ k : Fin (B * n), total f k.val := Finset.sum_congr rfl fun k _ => (total_val f k).symm
  rw [e, Fin.sum_univ_eq_sum_range (total f) (B * n), sum_range_blocks (total f) B n]
  refine Finset.sum_congr rfl fun t _ => ?_
  exact (Fin.sum_univ_eq_sum_range (fun r => total f (B * t + r)) B).symm

/-- A sum over B indices whose r-th entry is entry B * t + r of the family is block t's sum. -/
theorem block_eq {N : ℕ} (B : ℕ) (f : Fin N → M) (t : ℕ) (g : Fin B → M) (hlt : ∀ r : Fin B, B * t + r.val < N)
    (hg : ∀ r : Fin B, g r = f ⟨B * t + r.val, hlt r⟩) : ∑ r, g r = block B f t :=
  Finset.sum_congr rfl fun r _ => (hg r).trans (total_of_lt f _ (hlt r)).symm

/-- The blocks 0 .. n + 1 added up are the blocks 0 .. n added up, plus block n + 1. -/
theorem blocks_succ {N : ℕ} (B : ℕ) (f : Fin N → M) (n : ℕ) :
    ∑ t ∈ Finset.range (n + 1 + 1), block B f t = ∑ t ∈ Finset.range (n + 1), block B f t + block B f (n + 1) :=
  Finset.sum_range_succ _ (n + 1)

end Cert.LibBlockSum
-- ==== Proof.LseMath.lean ====
/-
  Streaming log-sum-exp on the extended reals at the exact reading of exp and log.

  * A maximum taken from −∞ over finitely many (at least one) real numbers is a real number.
  * One step of the streaming recurrence on a row: the state is a running shift m and a running sum l; a block of
    real scores y arrives; the new shift is max m (max_q y_q) and the new sum is l · exp (m − m') + Σ_q exp (y_q − m').
    If the old sum is "the sum T of the exponentials seen so far, shifted by m" — T a function of the shift with
    T a · e^{a − a'} = T a' — the new state is again of that form, whatever the shifts are; the first step, from
    m = −∞ and l = 0, is the same statement with T = 0.
  * With any such maximum as the shift, shift + log Σ exp (y − shift) is log Σ exp y.
  * 16384 = 16 · 1024: a sum over 16384 indices is the sum over 16 blocks of 1024 consecutive indices.
-/
import Idealize.ShloMosaic.PureOps.Ideal
import Mathlib.Analysis.SpecialFunctions.Log.Basic
import Mathlib.Data.EReal.Operations
import Mathlib.Data.Finset.Fold
import proofs.«160572_j54692113547585_2_alg».proof.Proof.LibLogSumExp
import proofs.«160572_j54692113547585_2_alg».proof.Proof.LibBlockSum

noncomputable section

namespace Cert.LseMath

open Idealize.ShloMosaic Cert.Lib.LogSumExp

/-- The largest of −∞ and at least one real number is a real number. -/
theorem fold_max_coe {n : ℕ} (hn : 0 < n) (y : Fin n → ℝ) :
    ∃ b : ℝ, (Finset.univ : Finset (Fin n)).fold max (⊥ : EReal) (fun q => (y q : EReal)) = (b : EReal) := by
  have h1 : (Finset.univ : Finset (Fin n)).fold max (⊥ : EReal) (fun q => (y q : EReal)) < ⊤ :=
    (Finset.fold_max_lt (⊤ : EReal)).mpr ⟨bot_lt_top, fun q _ => EReal.coe_lt_top _⟩
  have h2 : ⊥ < (Finset.univ : Finset (Fin n)).fold max (⊥ : EReal) (fun q => (y q : EReal)) :=
    (Finset.lt_fold_max (⊥ : EReal)).mpr (Or.inr ⟨⟨0, hn⟩, Finset.mem_univ _, EReal.bot_lt_coe _⟩)
  exact ⟨_, (EReal.coe_toReal h1.ne h2.ne').symm⟩

/-- One step of the streaming recurrence (see the header). -/
theorem stream_step {n : ℕ} (hn : 0 < n) (m l : EReal) (y : Fin n → ℝ) (T : ℝ → ℝ)
    (hT : ∀ a a' : ℝ, T a * Real.exp (a - a') = T a')
    (h : (m = ⊥ ∧ l = 0 ∧ ∀ a, T a = 0) ∨ ∃ a : ℝ, m = (a : EReal) ∧ l = ((T a : ℝ) : EReal)) :
    ∃ a' : ℝ, max m ((Finset.univ : Finset (Fin n)).fold max (⊥ : EReal) (fun q => (y q : EReal))) = (a' : EReal)
      ∧ l * Ideal.exp (m - (a' : EReal)) + ∑ q : Fin n, Ideal.exp ((y q : EReal) - (a' : EReal))
          = ((T a' + ∑ q : Fin n, Real.exp (y q - a') : ℝ) : EReal) := by
  obtain ⟨b, hb⟩ := fold_max_coe hn y
  rw [hb]
  rcases h with ⟨hm, hl, hT0⟩ | ⟨a, hm, hl⟩
  · refine ⟨b, by rw [hm]; exact max_eq_right bot_le, ?_⟩
    rw [hm, hl, EReal.bot_sub, Ideal.exp_bot, mul_zero, zero_add, sum_exp_shift, hT0 b, zero_add]
  · refine ⟨max a b, by rw [hm]; exact (EReal.coe_strictMono.monotone.map_max (a := a) (b := b)).symm, ?_⟩
    rw [hm, hl, exp_coe_sub, ← EReal.coe_mul, hT a (max a b), sum_exp_shift, ← EReal.coe_add]

/-- Shift by the maximum (taken from −∞), add the logarithm of the sum of the shifted exponentials: log Σ exp. -/
theorem lse_of_max {n : ℕ} (hn : 0 < n) (y : Fin n → ℝ) :
    (Finset.univ : Finset (Fin n)).fold max (⊥ : EReal) (fun q => (y q : EReal))
        + Ideal.log (∑ q : Fin n, Ideal.exp ((y q : EReal)
            - (Finset.univ : Finset (Fin n)).fold max (⊥ : EReal) (fun q => (y q : EReal))))
      = ((Real.log (∑ q : Fin n, Real.exp (y q)) : ℝ) : EReal) := by
  obtain ⟨b, hb⟩ := fold_max_coe hn y
  rw [hb]
  exact lse_shift Finset.univ ⟨⟨0, hn⟩, Finset.mem_univ _⟩ y b

/-- The same with any real shift. -/
theorem lse_of_shift {n : ℕ} (hn : 0 < n) (y : Fin n → ℝ) (b : ℝ) :
    (b : EReal) + Ideal.log (∑ q : Fin n, Ideal.exp ((y q : EReal) - (b : EReal)))
      = ((Real.log (∑ q : Fin n, Real.exp (y q)) : ℝ) : EReal) :=
  lse_shift Finset.univ ⟨⟨0, hn⟩, Finset.mem_univ _⟩ y b

/-- Index (block t, position r) of 16 blocks of 1024: t is read modulo 16, so the index is total in t. -/
def at1024 (t : ℕ) (r : Fin 1024) : Fin 16384 := ⟨(t % 16) * 1024 + r.val, by
  have := Nat.mod_lt t (show 0 < 16 by norm_num); have := r.isLt; omega⟩

theorem at1024_val (t : ℕ) (r : Fin 1024) : (at1024 t r).val = (t % 16) * 1024 + r.val := rfl

/-- A sum over 16384 indices, block by block. -/
theorem sum_blocks {M : Type*} [AddCommMonoid M] (f : Fin 16384 → M) :
    ∑ c : Fin 16384, f c = ∑ t ∈ Finset.range 16, ∑ r : Fin 1024, f (at1024 t r) := by
  rw [Cert.LibBlockSum.sum_eq_blocks 1024 16 (by norm_num) f]
  refine Finset.sum_congr rfl fun t ht => ?_
  have ht' : t < 16 := Finset.mem_range.mp ht
  refine (Cert.LibBlockSum.block_eq 1024 f t (fun r => f (at1024 t r)) (fun r => by have := r.isLt; omega) fun r => ?_).symm
  exact congrArg f (Fin.ext (by rw [at1024_val, Nat.mod_eq_of_lt ht']; ring))

end Cert.LseMath

end
-- ==== Proof.ClipSpec.lean ====
/-
  The symmetric contrastive loss of two real feature matrices, as one real number.

  For A, B : [16384, 512] the score matrix is  logit i j = Σ_k A i k · B j k.  With
    rowLse i = log Σ_j exp (logit i j)   and   colLse j = log Σ_i exp (logit i j),
  the loss is  − mean_i logit i i + ½ · mean_i rowLse i + ½ · mean_j colLse j.
  The "two cross-entropies averaged" form  ½ · (− mean_i (logit i i − rowLse i) − mean_i (logit i i − colLse i))
  is the same number: sums are linear.
-/
import Mathlib.Analysis.SpecialFunctions.Log.Basic
import Mathlib.Algebra.BigOperators.Ring.Finset
import Mathlib.Tactic.Ring

noncomputable section

namespace Cert.ClipSpec

/-- A real [16384, 512] feature matrix. -/
abbrev Mat := Fin 16384 → Fin 512 → ℝ

/-- The score of image row i against text row j. -/
def logit (A B : Mat) (i j : Fin 16384) : ℝ := ∑ k : Fin 512, A i k * B j k

/-- The log-sum-exp of row i of the score matrix. -/
def rowLse (A B : Mat) (i : Fin 16384) : ℝ := Real.log (∑ j : Fin 16384, Real.exp (logit A B i j))

/-- The log-sum-exp of column j of the score matrix. -/
def colLse (A B : Mat) (j : Fin 16384) : ℝ := Real.log (∑ i : Fin 16384, Real.exp (logit A B i j))

/-- The loss. -/
def loss (A B : Mat) : ℝ :=
  -((∑ i : Fin 16384, logit A B i i) / 16384) + (1 / 2) * ((∑ i : Fin 16384, rowLse A B i) / 16384)
    + (1 / 2) * ((∑ j : Fin 16384, colLse A B j) / 16384)

/-- The average of the two cross-entropies is the loss. -/
theorem loss_of_cross_entropies (A B : Mat) :
    (-((∑ i : Fin 16384, (logit A B i i - rowLse A B i)) / 16384)
        + -((∑ i : Fin 16384, (logit A B i i - colLse A B i)) / 16384)) * (1 / 2) = loss A B := by
  unfold loss
  rw [Finset.sum_sub_distrib, Finset.sum_sub_distrib]
  ring

end Cert.ClipSpec

end
-- ==== Proof.KStep.lean ====
import proofs.«160572_j54692113547585_2_alg».proof.Proof.KPayload
import proofs.«160572_j54692113547585_2_alg».proof.Proof.LseMath
import proofs.«160572_j54692113547585_2_alg».proof.Proof.ClipSpec

set_option pp.maxSteps 20000
set_option pp.deepTerms false

noncomputable section

open Idealize.ShloMosaic Idealize.ShloMosaic.TcCoe Idealize.SL.Sem
open Idealize.ShloMosaic.Pipeline (Dat)

/-! One grid point on real data.

    Row tile `it` holds rows it·1024 + p of the image matrix A, column tile `j` rows j·1024 + q of the text matrix B.
    For a row r, `seen r n s` is the sum of exp (logit r c − s) over the columns c of the first n column tiles. If before the
    point the running shift of row p is a real number a and its running sum is `seen r j a` (or they are −∞ and 0 and
    j = 0), after it they are a real number a' and `seen r (j + 1) a'`; after the last tile shift + log sum is the row's
    log-sum-exp; and the column output at q is the log-sum-exp of the tile's 1024 scores in column j·1024 + q. -/

namespace Cert.KernelIdeal.KV

open Cert.KernelIdeal Cert.KernelIdeal.Gen Idealize.ShloMosaic.ValueIdx
open Cert.LibRowSoftmax (maxFrom)
open Cert.ClipSpec Cert.LseMath Cert.Lib.LogSumExp

/-- The exponentials of row r seen in the first n column tiles, shifted by s. -/
def seen (A B : Mat) (r : Fin 16384) (n : ℕ) (s : ℝ) : ℝ :=
  ∑ jb ∈ Finset.range n, ∑ q : Fin 1024, Real.exp (logit A B r (at1024 jb q) - s)

theorem seen_zero (A B : Mat) (r : Fin 16384) (s : ℝ) : seen A B r 0 s = 0 := Finset.sum_range_zero _

theorem seen_succ (A B : Mat) (r : Fin 16384) (n : ℕ) (s : ℝ) :
    seen A B r (n + 1) s = seen A B r n s + ∑ q : Fin 1024, Real.exp (logit A B r (at1024 n q) - s) :=
  Finset.sum_range_succ _ _

theorem seen_shift (A B : Mat) (r : Fin 16384) (n : ℕ) (a a' : ℝ) :
    seen A B r n a * Real.exp (a - a') = seen A B r n a' := by
  unfold seen
  rw [Finset.sum_mul]
  refine Finset.sum_congr rfl fun jb _ => ?_
  rw [Finset.sum_mul]
  refine Finset.sum_congr rfl fun q _ => ?_
  rw [← Real.exp_add]
  congr 1; ring

theorem seen_all (A B : Mat) (r : Fin 16384) (s : ℝ) :
    seen A B r 16 s = ∑ c : Fin 16384, Real.exp (logit A B r c - s) :=
  (sum_blocks fun c => Real.exp (logit A B r c - s)).symm

/-- The log-sum-exp of the 1024 scores of row tile `it` in column c. -/
def part (A B : Mat) (it : ℕ) (c : Fin 16384) : ℝ := Real.log (∑ p : Fin 1024, Real.exp (logit A B (at1024 it p) c))

section
variable (x0 x1 : FVec Ideal S1024x512 .bf16) (A B : Mat) (it j : ℕ)
  (h0 : ∀ (p : Fin 1024) (k : Fin 512), x0 (ix2 p k) = ((A (at1024 it p) k : ℝ) : EReal))
  (h1 : ∀ (q : Fin 1024) (k : Fin 512), x1 (ix2 q k) = ((B (at1024 j q) k : ℝ) : EReal))
include h0 h1

/-- The tile's scores are the real scores. -/
theorem sc_real (p q : Fin 1024) : sc x0 x1 p q = ((logit A B (at1024 it p) (at1024 j q) : ℝ) : EReal) := by
  unfold sc logit
  rw [coe_finsum]
  exact Finset.sum_congr rfl fun k _ => by rw [h0, h1, EReal.coe_mul]

/-- One step of the streaming recurrence on row p. -/
theorem step (xs0 xs1 : FVec Ideal S1024x1 .f32) (p : Fin 1024)
    (hst : (xs0 (ix2 p (0 : Fin 1)) = ⊥ ∧ xs1 (ix2 p (0 : Fin 1)) = 0 ∧ j = 0)
      ∨ ∃ a : ℝ, xs0 (ix2 p (0 : Fin 1)) = (a : EReal) ∧ xs1 (ix2 p (0 : Fin 1)) = ((seen A B (at1024 it p) j a : ℝ) : EReal)) :
    ∃ a' : ℝ, k0_pay7 (F := Ideal) x0 x1 xs0 (ix2 p (0 : Fin 1)) = (a' : EReal)
      ∧ k0_pay6 (F := Ideal) x0 x1 xs0 xs0 xs1 (ix2 p (0 : Fin 1)) = ((seen A B (at1024 it p) (j + 1) a' : ℝ) : EReal) := by
  have hsc : (fun q => sc x0 x1 p q) = fun q => ((logit A B (at1024 it p) (at1024 j q) : ℝ) : EReal) :=
    funext fun q => sc_real x0 x1 A B it j h0 h1 p q
  obtain ⟨a', hmax, hsum⟩ := stream_step (n := 1024) (by norm_num) (xs0 (ix2 p (0 : Fin 1))) (xs1 (ix2 p (0 : Fin 1)))
    (fun q => logit A B (at1024 it p) (at1024 j q)) (seen A B (at1024 it p) j) (seen_shift A B (at1024 it p) j)
    (by
      rcases hst with ⟨hm, hl, hj⟩ | h
      · exact Or.inl ⟨hm, hl, fun a => by rw [hj]; exact seen_zero A B _ a⟩
      · exact Or.inr h)
  have h5 : k0_pay5 (F := Ideal) x0 x1 xs0 (ix2 p (0 : Fin 1)) = (a' : EReal) := by
    rw [pay5_apply, hsc]; exact hmax
  refine ⟨a', by rw [pay7_eq]; exact h5, ?_⟩
  rw [pay6_apply, h5, seen_succ]
  simp only [sc_real x0 x1 A B it j h0 h1]
  exact hsum

/-- The row output after the last column tile. -/
theorem row_out (xs0 xs1 : FVec Ideal S1024x1 .f32) (p : Fin 1024) (hj : j = 15)
    (hst : ∃ a : ℝ, xs0 (ix2 p (0 : Fin 1)) = (a : EReal) ∧ xs1 (ix2 p (0 : Fin 1)) = ((seen A B (at1024 it p) j a : ℝ) : EReal)) :
    k0_pay8 (F := Ideal) (k0_pay7 (F := Ideal) x0 x1 xs0) (k0_pay6 (F := Ideal) x0 x1 xs0 xs0 xs1) (ix2 p (0 : Fin 1))
      = ((rowLse A B (at1024 it p) : ℝ) : EReal) := by
  obtain ⟨a', e7, e6⟩ := step x0 x1 A B it j h0 h1 xs0 xs1 p (Or.inr hst)
  rw [pay8_apply, e7, e6, hj, seen_all]
  rw [← sum_exp_shift Finset.univ (fun c => logit A B (at1024 it p) c) a']
  exact lse_of_shift (by norm_num) (fun c => logit A B (at1024 it p) c) a'

/-- The column output. -/
theorem col_out (u v : Fin 1) (q : Fin 1024) :
    k0_pay1 (F := Ideal) (k0_pay4 (F := Ideal) x0 x1) (ix3 u v q) = ((part A B it (at1024 j q) : ℝ) : EReal) := by
  rw [pay1_apply]
  simp only [pay4_apply, sc_real x0 x1 A B it j h0 h1]
  exact lse_of_max (by norm_num) fun p => logit A B (at1024 it p) (at1024 j q)

end

end Cert.KernelIdeal.KV

end
-- ==== Proof.KInv.lean ====
import proofs.«160572_j54692113547585_2_alg».proof.Proof.KPieces
import proofs.«160572_j54692113547585_2_alg».proof.Proof.KStep
import Idealize.ShloMosaic.Lib.StableHlo.Run

set_option pp.maxSteps 20000
set_option pp.deepTerms false

noncomputable section

open Idealize.ShloMosaic Idealize.ShloMosaic.TcCoe Idealize.SL.Sem
open Idealize.ShloMosaic.Pipeline (Dat)

/-! The kernel's two carried columns and its two outputs, point by point, on real data.

    Grid point t = 16·it + j handles row tile it and column tile j. By induction on t: after point t the running shift
    of row p is a real number a and the running sum is the sum of exp (logit − a) over the first j + 1 column tiles.
    Hence the row output written at j = 15 is the row's log-sum-exp, and the column output written at every point is the
    log-sum-exp of the row tile's scores in that column. -/

namespace Cert.KernelIdeal.KV

open Cert.KernelIdeal Cert.KernelIdeal.Gen Idealize.ShloMosaic.ValueIdx
open Cert.ClipSpec Cert.LseMath

variable (m : (ℓ : Loc nD τ sig) → Buf (Elt Ideal) ℓ) (A B : Mat)

/-- The two argument arrays hold the real matrices A and B. -/
def RealArgs (c : Dev nD) : Prop :=
  (∀ (i : Fin 16384) (k : Fin 512), m ((c : Thread nD τ).loc main_arg0) (ix2 i k) = ((A i k : ℝ) : EReal))
  ∧ (∀ (i : Fin 16384) (k : Fin 512), m ((c : Thread nD τ).loc main_arg1) (ix2 i k) = ((B i k : ℝ) : EReal))

/-- The printed index maps over the grid: point t is (row tile t / 16, column tile t % 16). -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 3) = t.val / 16 ∧ win0_3.index t (1 : Fin 3) = 0 ∧ win0_3.index t (2 : Fin 3) = t.val % 16 :=
  (by decide +kernel : ∀ t : Fin grid0.N, _)

/-- The region finds the image matrix, rounded to the kernel's input format (the identity on the extended reals). -/
theorem V_v0 (c : Dev nD) : (V m c main_v0 : S16384x512.Idx → EReal) = fun i => m ((c : Thread nD τ).loc main_arg0) i := by
  show StableHlo.after hostOps0 (fun b => m (c, b)) (Proc.devRef .tc main_v0) = _
  after_results
  rfl

theorem V_v1 (c : Dev nD) : (V m c main_v1 : S16384x512.Idx → EReal) = fun i => m ((c : Thread nD τ).loc main_arg1) i := by
  show StableHlo.after hostOps0 (fun b => m (c, b)) (Proc.devRef .tc main_v1) = _
  after_results
  rfl

/-- The image block at point t: rows (t / 16)·1024 + p. -/
theorem iblk0_apply (c : Dev nD) (hR : RealArgs m A B c) (t : Fin cfg0.N) (p : Fin 1024) (k : Fin 512) :
    (iblk m c 0 t : FVec Ideal S1024x512 .bf16) (ix2 p k) = ((A (at1024 (t.val / 16) p) k : ℝ) : EReal) := by
  have hN : cfg0.N = 256 := N_0
  have ht := t.isLt
  obtain ⟨e0, e1, -⟩ := idx_facts t
  unfold iblk
  show V m c main_v0 (((cfg0.win 0).blk t).view.emb (ix2 p k)) = _
  rw [V_v0, ← hR.1]
  refine congrArg _ (funext fun a => Fin.ext ?_)
  match a with
  | ⟨0, _⟩ =>
    show win0_0.index t (0 : Fin 2) * 1024 + 1 * p.val = (t.val / 16 % 16) * 1024 + p.val
    rw [e0]; omega
  | ⟨1, _⟩ =>
    show win0_0.index t (1 : Fin 2) * 512 + 1 * k.val = k.val
    rw [e1]; omega

/-- The text block at point t: rows (t % 16)·1024 + q. -/
theorem iblk1_apply (c : Dev nD) (hR : RealArgs m A B c) (t : Fin cfg0.N) (q : Fin 1024) (k : Fin 512) :
    (iblk m c 1 t : FVec Ideal S1024x512 .bf16) (ix2 q k) = ((B (at1024 (t.val % 16) q) k : ℝ) : EReal) := by
  obtain ⟨-, -, e0, e1, -⟩ := idx_facts t
  unfold iblk
  show V m c main_v1 (((cfg0.win 1).blk t).view.emb (ix2 q k)) = _
  rw [V_v1, ← hR.2]
  refine congrArg _ (funext fun a => Fin.ext ?_)
  match a with
  | ⟨0, _⟩ =>
    show win0_1.index t (0 : Fin 2) * 1024 + 1 * q.val = (t.val % 16 % 16) * 1024 + q.val
    rw [e0]; omega
  | ⟨1, _⟩ =>
    show win0_1.index t (1 : Fin 2) * 512 + 1 * k.val = k.val
    rw [e1]; omega

/-- What the three kinds of point leave, as the body's arithmetic of what they found. -/
theorem comps_A (c : Dev nD) (t : Fin cfg0.N) (h0 : t.val % 16 = 0) (h1 : ¬t.val % 16 = 15) :
    (outsAt0 m c t.val t.isLt).2.2.1 = k0_pay7 (F := Ideal) (iblk m c 0 t) (iblk m c 1 t) (k0_pay2 (F := Ideal))
    ∧ (outsAt0 m c t.val t.isLt).2.2.2 = k0_pay6 (F := Ideal) (iblk m c 0 t) (iblk m c 1 t) (k0_pay2 (F := Ideal)) (k0_pay2 (F := Ideal)) (k0_pay3 (F := Ideal))
    ∧ (outsAt0 m c t.val t.isLt).2.1 = k0_pay1 (F := Ideal) (k0_pay4 (F := Ideal) (iblk m c 0 t) (iblk m c 1 t)) := by
  rw [outsAt0_A m c t h0 h1]
  dsimp only
  exact ⟨sout_A_0 (F := Ideal) .., sout_A_1 (F := Ideal) .., out_A_3 (F := Ideal) ..⟩

theorem comps_B (c : Dev nD) (t : Fin cfg0.N) (h0 : ¬t.val % 16 = 0) (h1 : ¬t.val % 16 = 15) :
    (outsAt0 m c t.val t.isLt).2.2.1 = k0_pay7 (F := Ideal) (iblk m c 0 t) (iblk m c 1 t) (outsAt0 m c (t.val - 1) (Nat.lt_of_le_of_lt (Nat.sub_le _ _) t.isLt)).2.2.1
    ∧ (outsAt0 m c t.val t.isLt).2.2.2 = k0_pay6 (F := Ideal) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).2.1 = k0_pay1 (F := Ideal) (k0_pay4 (F := Ideal) (iblk m c 0 t) (iblk m c 1 t)) := by
  rw [outsAt0_B m c t h0 h1]
  dsimp only
  exact ⟨sout_B_0 (F := Ideal) .., sout_B_1 (F := Ideal) .., out_B_3 (F := Ideal) ..⟩

theorem comps_C (c : Dev nD) (t : Fin cfg0.N) (h0 : ¬t.val % 16 = 0) (h1 : t.val % 16 = 15) :
    (outsAt0 m c t.val t.isLt).2.2.1 = k0_pay7 (F := Ideal) (iblk m c 0 t) (iblk m c 1 t) (outsAt0 m c (t.val - 1) (Nat.lt_of_le_of_lt (Nat.sub_le _ _) t.isLt)).2.2.1
    ∧ (outsAt0 m c t.val t.isLt).2.2.2 = k0_pay6 (F := Ideal) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).2.1 = k0_pay1 (F := Ideal) (k0_pay4 (F := Ideal) (iblk m c 0 t) (iblk m c 1 t))
    ∧ (outsAt0 m c t.val t.isLt).1 = k0_pay8 (F := Ideal) (k0_pay7 (F := Ideal) (iblk m c 0 t) (iblk m c 1 t) (outsAt0 m c (t.val - 1) (Nat.lt_of_le_of_lt (Nat.sub_le _ _) t.isLt)).2.2.1) (k0_pay6 (F := Ideal) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_C m c t h0 h1]
  dsimp only
  exact ⟨sout_C_0 (F := Ideal) .., sout_C_1 (F := Ideal) .., out_C_3 (F := Ideal) .., out_C_2 (F := Ideal) ..⟩

/-- After point t the carried columns are, row by row, a real shift and the shifted sum over the tiles seen. -/
def Inv (c : Dev nD) (t : Fin cfg0.N) : Prop :=
  ∀ p : Fin 1024, ∃ a : ℝ, (outsAt0 m c t.val t.isLt).2.2.1 (ix2 p (0 : Fin 1)) = (a : EReal)
    ∧ (outsAt0 m c t.val t.isLt).2.2.2 (ix2 p (0 : Fin 1)) = ((seen A B (at1024 (t.val / 16) p) (t.val % 16 + 1) a : ℝ) : EReal)

theorem inv_step (c : Dev nD) (hR : RealArgs m A B c) (t : Fin cfg0.N)
    (ih : ∀ h : 0 < t.val, Inv m A B c ⟨t.val - 1, Nat.lt_of_le_of_lt (Nat.sub_le _ _) t.isLt⟩) : Inv m A B c t := by
  intro p
  have hN : cfg0.N = 256 := N_0
  have ht := t.isLt
  by_cases h0 : t.val % 16 = 0
  · have h1 : ¬t.val % 16 = 15 := by omega
    obtain ⟨e1, e2, -⟩ := comps_A m c t h0 h1
    rw [e1, e2]
    exact step (iblk m c 0 t) (iblk m c 1 t) A B (t.val / 16) (t.val % 16) (iblk0_apply m A B c hR t) (iblk1_apply m A B c hR t)
      (k0_pay2 (F := Ideal)) (k0_pay3 (F := Ideal)) p (Or.inl ⟨pay2_apply _, pay3_apply _, h0⟩)
  · have hpos : 0 < t.val := by omega
    have ih' := ih hpos p
    have hq : (t.val - 1) % 16 + 1 = t.val % 16 := by omega
    have hd : (t.val - 1) / 16 = t.val / 16 := by omega
    dsimp only at ih'
    rw [hq, hd] at ih'
    by_cases h1 : t.val % 16 = 15
    · obtain ⟨e1, e2, -⟩ := comps_C m c t h0 h1
      rw [e1, e2]
      exact step (iblk m c 0 t) (iblk m c 1 t) A B (t.val / 16) (t.val % 16) (iblk0_apply m A B c hR t) (iblk1_apply m A B c hR t)
        _ _ p (Or.inr ih')
    · obtain ⟨e1, e2, -⟩ := comps_B m c t h0 h1
      rw [e1, e2]
      exact step (iblk m c 0 t) (iblk m c 1 t) A B (t.val / 16) (t.val % 16) (iblk0_apply m A B c hR t) (iblk1_apply m A B c hR t)
        _ _ p (Or.inr ih')

theorem inv_all (c : Dev nD) (hR : RealArgs m A B c) : ∀ (n : ℕ) (hn : n < cfg0.N), Inv m A B c ⟨n, hn⟩ := by
  intro n
  induction n with
  | zero => exact fun hn => inv_step m A B c hR ⟨0, hn⟩ fun h => absurd h (Nat.lt_irrefl 0)
  | succ n ih => exact fun hn => inv_step m A B c hR ⟨n + 1, hn⟩ fun _ => ih (Nat.lt_of_succ_lt hn)

/-- The column output staged at point t. -/
theorem out3_at (c : Dev nD) (hR : RealArgs m A B c) (t : Fin cfg0.N) (j : S1x1x1024.Idx) :
    (outsAt0 m c t.val t.isLt).2.1 j
      = ((part A B (t.val / 16) (at1024 (t.val % 16) ⟨(j 2).val, (j 2).isLt⟩) : ℝ) : EReal) := by
  have hN : cfg0.N = 256 := N_0
  obtain ⟨u, v, q, rfl⟩ : ∃ (u v : Fin 1) (q : Fin 1024), j = ix3 u v q := ⟨j 0, j 1, j 2, eq_ix3 j⟩
  have key : (outsAt0 m c t.val t.isLt).2.1 = k0_pay1 (F := Ideal) (k0_pay4 (F := Ideal) (iblk m c 0 t) (iblk m c 1 t)) := by
    by_cases h0 : t.val % 16 = 0
    · have h1 : ¬t.val % 16 = 15 := by omega
      exact (comps_A m c t h0 h1).2.2
    · by_cases h1 : t.val % 16 = 15
      · exact (comps_C m c t h0 h1).2.2.1
      · exact (comps_B m c t h0 h1).2.2
  rw [key]
  exact col_out (iblk m c 0 t) (iblk m c 1 t) A B (t.val / 16) (t.val % 16) (iblk0_apply m A B c hR t) (iblk1_apply m A B c hR t) u v q

/-- The row output staged at the last column tile of a row tile. -/
theorem out2_at (c : Dev nD) (hR : RealArgs m A B c) (t : Fin cfg0.N) (h15 : t.val % 16 = 15) (j : S1024x1.Idx) :
    (outsAt0 m c t.val t.isLt).1 j = ((rowLse A B (at1024 (t.val / 16) ⟨(j 0).val, (j 0).isLt⟩) : ℝ) : EReal) := by
  have hN : cfg0.N = 256 := N_0
  have ht := t.isLt
  obtain ⟨p, u, rfl⟩ : ∃ (p : Fin 1024) (u : Fin 1), j = ix2 p u := ⟨j 0, j 1, eq_ix2 j⟩
  obtain rfl : u = 0 := Subsingleton.elim _ _
  have h0 : ¬t.val % 16 = 0 := by omega
  rw [(comps_C m c t h0 h15).2.2.2]
  have ih := inv_all m A B c hR (t.val - 1) (Nat.lt_of_le_of_lt (Nat.sub_le _ _) t.isLt) p
  have hq : (t.val - 1) % 16 + 1 = t.val % 16 := by omega
  have hd : (t.val - 1) / 16 = t.val / 16 := by omega
  dsimp only at ih
  rw [hq, hd] at ih
  exact row_out (iblk m c 0 t) (iblk m c 1 t) A B (t.val / 16) (t.val % 16) (iblk0_apply m A B c hR t) (iblk1_apply m A B c hR t)
    _ _ p h15 ih

end Cert.KernelIdeal.KV

end
-- ==== Proof.KOut.lean ====
import proofs.«160572_j54692113547585_2_alg».proof.Proof.KStep

set_option pp.maxSteps 20000
set_option pp.deepTerms false

noncomputable section

open Idealize.ShloMosaic Idealize.ShloMosaic.TcCoe Idealize.SL.Sem
open Idealize.ShloMosaic.Pipeline (Dat)

/-! The two arrays the kernel's region leaves for the host lines after it, on real data: the row output holds each row's
    log-sum-exp; the column output holds, per row tile and column, the log-sum-exp of the tile's 1024 scores in that column. -/

namespace Cert.KernelIdeal.KV

open Cert.KernelIdeal Idealize.ShloMosaic.ValueIdx
open Cert.ClipSpec Cert.LseMath

/-- The row output: each row's log-sum-exp. -/
def G2 (A B : Mat) : S16384x1.Idx → EReal := fun i => ((rowLse A B ⟨(i 0).val, (i 0).isLt⟩ : ℝ) : EReal)

/-- The column output: per row tile, each column's log-sum-exp over the tile's rows. -/
def G3 (A B : Mat) : S16x1x16384.Idx → EReal := fun i => ((part A B (i 0).val ⟨(i 2).val, (i 2).isLt⟩ : ℝ) : EReal)

theorem G2_apply (A B : Mat) (r : Fin 16384) (u : Fin 1) : G2 A B (ix2 r u) = ((rowLse A B r : ℝ) : EReal) := rfl

theorem G3_apply (A B : Mat) (it : Fin 16) (u : Fin 1) (c : Fin 16384) :
    G3 A B (ix3 it u c) = ((part A B it.val c : ℝ) : EReal) := rfl

end Cert.KernelIdeal.KV

end
-- ==== Proof.KArrays.lean ====
import proofs.«160572_j54692113547585_2_alg».proof.Proof.KInv
import proofs.«160572_j54692113547585_2_alg».proof.Proof.KOut

set_option pp.maxSteps 20000
set_option pp.deepTerms false

noncomputable section

open Idealize.ShloMosaic Idealize.ShloMosaic.TcCoe Idealize.SL.Sem
open Idealize.ShloMosaic.Pipeline (Dat)

/-! The kernel's two output arrays after the run.

    The row output's block at row tile it is written back at point 16·it + 15 and holds the log-sum-exp of its 1024 rows;
    the column output's block (it, ·, j) is written back at point 16·it + j. The blocks tile both arrays, so the row
    output ends as r ↦ rowLse r and the column output as (it, ·, c) ↦ the log-sum-exp of row tile it's scores in column c. -/

namespace Cert.KernelIdeal.KV

open Cert.KernelIdeal Cert.KernelIdeal.Gen Idealize.ShloMosaic.ValueIdx
open Cert.ClipSpec Cert.LseMath
open Idealize.ShloMosaic.Pipeline (Dat)

variable (m : (ℓ : Loc nD τ sig) → Buf (Elt Ideal) ℓ) (A B : Mat)

theorem flushed2_eq (c : Dev nD) (hR : RealArgs m A B c) (t : Fin cfg0.N) (hf : (cfg0.win 2).flush t = true) :
    (dats m 0 c).flushed 2 t = ((cfg0.win 2).blk t).view.read (Elt Ideal) (G2 A B) := by
  have h15 := (flush0_2 t).mp hf
  have hN : cfg0.N = 256 := N_0
  have ht := t.isLt
  obtain ⟨-, -, -, -, e0, e1, -⟩ := idx_facts t
  show (cfg0.win 2).cut (grid0.coords t) ((dats m 0 c).after 2 t) = _
  rw [after0_2]
  funext j
  show (outsAt0 m c t.val t.isLt).1 j = G2 A B (((cfg0.win 2).blk t).view.emb j)
  refine (out2_at m A B c hR t h15 j).trans ?_
  unfold G2
  refine congrArg (fun r => ((rowLse A B r : ℝ) : EReal)) (Fin.ext ?_)
  show (t.val / 16 % 16) * 1024 + (j 0).val = win0_2.index t (0 : Fin 2) * 1024 + 1 * (j 0).val
  rw [e0]; omega

theorem flushed3_eq (c : Dev nD) (hR : RealArgs m A B c) (t : Fin cfg0.N) :
    (dats m 0 c).flushed 3 t = ((cfg0.win 3).blk t).view.read (Elt Ideal) (G3 A B) := by
  have hN : cfg0.N = 256 := N_0
  have ht := t.isLt
  obtain ⟨-, -, -, -, -, -, e0, e1, e2⟩ := idx_facts t
  show (cfg0.win 3).cut (grid0.coords t) ((dats m 0 c).after 3 t) = _
  rw [after0_3]
  funext j
  show (outsAt0 m c t.val t.isLt).2.1 j = G3 A B (((cfg0.win 3).blk t).view.emb j)
  refine (out3_at m A B c hR t j).trans ?_
  unfold G3
  have hj0 : (j 0).val < 1 := (j 0).isLt
  have hj2 : (j 2).val < 1024 := (j 2).isLt
  have ea : t.val / 16 = win0_3.index t (0 : Fin 3) * 1 + 1 * (j 0).val := by rw [e0]; omega
  have eb : at1024 (t.val % 16) ⟨(j 2).val, (j 2).isLt⟩ = ⟨win0_3.index t (2 : Fin 3) * 1024 + 1 * (j 2).val, by rw [e2]; omega⟩ :=
    Fin.ext (by show t.val % 16 % 16 * 1024 + (j 2).val = win0_3.index t (2 : Fin 3) * 1024 + 1 * (j 2).val; omega)
  show ((part A B (t.val / 16) (at1024 (t.val % 16) ⟨(j 2).val, (j 2).isLt⟩) : ℝ) : EReal)
    = ((part A B (win0_3.index t (0 : Fin 3) * 1 + 1 * (j 0).val) ⟨win0_3.index t (2 : Fin 3) * 1024 + 1 * (j 2).val, _⟩ : ℝ) : EReal)
  rw [← ea, eb]

/-- An index of the row output is in point t's block iff each coordinate is in the block's range. -/
theorem mem_blk2 (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2_0).slice (win0_2.rect t)).set ↔ _
  rw [View.set_slice_whole, Rect.mem_set_unit]
  exact Iff.rfl

theorem mem_blk3 (t : Fin cfg0.N) (i : S16x1x16384.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v2_1).slice (win0_3.rect t)).set ↔ _
  rw [View.set_slice_whole, Rect.mem_set_unit]
  exact Iff.rfl

/-- The row output after the run. -/
theorem final2 (c : Dev nD) (hR : RealArgs m A B c) : (dats m 0 c).arrAt 2 cfg0.N = G2 A B :=
  (dats m 0 c).arrAt_eq_of_cover 2 (G2 A B) (fun t hf => flushed2_eq m A B c hR t hf) fun i => by
    have hN : cfg0.N = 256 := N_0
    have hi0 : (i 0).val < 16384 := (i 0).isLt
    have hi1 : (i 1).val < 1 := (i 1).isLt
    refine ⟨⟨(i 0).val / 1024 * 16 + 15, by rw [hN]; omega⟩, (flush0_2 _).mpr (by show ((i 0).val / 1024 * 16 + 15) % 16 = 15; omega), ?_⟩
    rw [mem_blk2]
    obtain ⟨-, -, -, -, e0, e1, -⟩ := idx_facts ⟨(i 0).val / 1024 * 16 + 15, by rw [hN]; omega⟩
    intro a
    match a with
    | ⟨0, _⟩ =>
      show win0_2.index _ (0 : Fin 2) * 1024 ≤ (i 0).val ∧ (i 0).val < win0_2.index _ (0 : Fin 2) * 1024 + 1024
      rw [e0]; show ((i 0).val / 1024 * 16 + 15) / 16 * 1024 ≤ (i 0).val ∧ (i 0).val < ((i 0).val / 1024 * 16 + 15) / 16 * 1024 + 1024
      omega
    | ⟨1, _⟩ =>
      show win0_2.index _ (1 : Fin 2) * 1 ≤ (i 1).val ∧ (i 1).val < win0_2.index _ (1 : Fin 2) * 1 + 1
      rw [e1]; omega

/-- The column output after the run. -/
theorem final3 (c : Dev nD) (hR : RealArgs m A B c) : (dats m 0 c).arrAt 3 cfg0.N = G3 A B :=
  (dats m 0 c).arrAt_eq_of_cover 3 (G3 A B) (fun t _ => flushed3_eq m A B c hR t) fun i => by
    have hN : cfg0.N = 256 := N_0
    have hi0 : (i 0).val < 16 := (i 0).isLt
    have hi1 : (i 1).val < 1 := (i 1).isLt
    have hi2 : (i 2).val < 16384 := (i 2).isLt
    refine ⟨⟨(i 0).val * 16 + (i 2).val / 1024, by rw [hN]; omega⟩, flush0_3 _, ?_⟩
    rw [mem_blk3]
    obtain ⟨-, -, -, -, -, -, e0, e1, e2⟩ := idx_facts ⟨(i 0).val * 16 + (i 2).val / 1024, by rw [hN]; omega⟩
    intro a
    match a with
    | ⟨0, _⟩ =>
      show win0_3.index _ (0 : Fin 3) * 1 ≤ (i 0).val ∧ (i 0).val < win0_3.index _ (0 : Fin 3) * 1 + 1
      rw [e0]; show ((i 0).val * 16 + (i 2).val / 1024) / 16 * 1 ≤ (i 0).val ∧ (i 0).val < ((i 0).val * 16 + (i 2).val / 1024) / 16 * 1 + 1
      omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 1024 ≤ (i 2).val ∧ (i 2).val < win0_3.index _ (2 : Fin 3) * 1024 + 1024
      rw [e2]; show ((i 0).val * 16 + (i 2).val / 1024) % 16 * 1024 ≤ (i 2).val ∧ (i 2).val < ((i 0).val * 16 + (i 2).val / 1024) % 16 * 1024 + 1024
      omega

end Cert.KernelIdeal.KV

end
-- ==== Proof.LibStagedRun.lean ====
/-
  Host operations run one list after another.

  The contents after a list of host operations is a fold of the operations' results over the starting contents, so the
  contents after two lists, one appended to the other, are the contents after the second list starting from the
  contents after the first; and so on for a list of lists flattened. This lets a long straight-line program be read
  back stage by stage, each stage over arbitrary starting contents.
-/
import Idealize.ShloMosaic.Lib.StableHlo.Run

namespace Cert.LibStagedRun

open Idealize.ShloMosaic Idealize.ShloMosaic.StableHlo

variable {τ : Topo} {sig : RefSig} {Val : EltTy → Type}

/-- The contents after two lists of operations run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five stretches of operations, flattened, run as the five stretches in turn. -/
theorem after_flatten5 (l₀ l₁ l₂ l₃ l₄ : List (HloOp τ sig Val)) (V : Valuation τ sig Val) :
    after (List.flatten [l₀, l₁, l₂, l₃, l₄]) V = after l₄ (after l₃ (after l₂ (after l₁ (after l₀ V)))) := by
  simp only [List.flatten_cons, List.flatten_nil, List.append_nil, after_append]

end Cert.LibStagedRun
-- ==== Proof.RefRun.lean ====
/-
  The reference program's run, read back in stages.

  The program is a straight line of 85 host operations. It is cut into six consecutive stretches: the score matrix and
  the iota; the log-softmax along the rows; the diagonal's negated mean; the log-softmax down the columns; the
  diagonal's negated mean again; the half sum. Each stretch, from ARBITRARY starting contents, leaves its result buffer
  at a small staged function of the contents of the buffers it reads, and leaves alone the buffers it does not write.
  Joined in order (the contents after an appended list are the contents after the second from the contents after the
  first), the result buffer of the whole program holds `refValF` of the two arguments, for any float values.
-/
import proofs.«160572_j54692113547585_2_alg».proof.Proof.Gen.ReferenceIdeal
import proofs.«160572_j54692113547585_2_alg».proof.Proof.LibStagedRun
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The staged functions -/

/-- The score matrix: the constant one times the product of the first argument with the second's transpose. -/
def scores (x0 x1 : (⟨S16384x512, .f32⟩ : BufTy).Contents (Elt F)) : (⟨S16384x16384, .f32⟩ : BufTy).Contents (Elt F) :=
  mulf (broadcastInDim S16384x16384 ![] bcast_S_S16384x16384 (constant S_ .f32 0x3F800000#32)) (Host.dotGeneral dot_S16384x512_S512x16384_S16384x16384_1_0_0_1_n_n none x0 (transpose S512x16384 [1, 0] x1 transposes_S16384x512_S512x16384_1_0))

/-- The iota 0, 1, …, 16383. -/
def iotaV : (⟨S16384, .i32⟩ : BufTy).Contents (Elt F) := iotaInDim S16384 32 0

/-- Each row's maximum, taken from minus infinity, joined once more with minus infinity. -/
def rowMax (s : (⟨S16384x16384, .f32⟩ : BufTy).Contents (Elt F)) : (⟨S16384, .f32⟩ : BufTy).Contents (Elt F) :=
  maximumf (broadcastInDim S16384 ![] bcast_S_S16384 (constant S_ .f32 0xFF800000#32)) (Host.reduce FloatOps.maximumf s (constant S_ .f32 0xFF800000#32) reducesTo_S16384x16384_S16384_d1 h_S_)

/-- The matrix with each row's maximum subtracted. -/
def rowShift (s : (⟨S16384x16384, .f32⟩ : BufTy).Contents (Elt F)) : (⟨S16384x16384, .f32⟩ : BufTy).Contents (Elt F) :=
  subf s (broadcastInDim S16384x16384 ![0, 1] bcast_S16384x1_S16384x16384_0_1 (broadcastInDim S16384x1 ![0] bcast_S16384_S16384x1_0 (rowMax s)))

/-- Each row's sum of exponentials, from zero. -/
def rowSumExp (t : (⟨S16384x16384, .f32⟩ : BufTy).Contents (Elt F)) : (⟨S16384, .f32⟩ : BufTy).Contents (Elt F) :=
  Host.reduceAdd (Host.exp t) (constant S_ .f32 0x00000000#32) reducesTo_S16384x16384_S16384_d1 h_S_

/-- The log-softmax along the rows. -/
def rowLsm (s : (⟨S16384x16384, .f32⟩ : BufTy).Contents (Elt F)) : (⟨S16384x16384, .f32⟩ : BufTy).Contents (Elt F) :=
  subf (rowShift s) (broadcastInDim S16384x16384 ![0, 1] bcast_S16384x1_S16384x16384_0_1 (Host.log (broadcastInDim S16384x1 ![0] bcast_S16384_S16384x1_0 (rowSumExp (rowShift s)))))

/-- Each column's maximum, taken from minus infinity, joined once more with minus infinity. -/
def colMax (s : (⟨S16384x16384, .f32⟩ : BufTy).Contents (Elt F)) : (⟨S16384, .f32⟩ : BufTy).Contents (Elt F) :=
  maximumf (broadcastInDim S16384 ![] bcast_S_S16384 (constant S_ .f32 0xFF800000#32)) (Host.reduce FloatOps.maximumf s (constant S_ .f32 0xFF800000#32) reducesTo_S16384x16384_S16384_d0 h_S_)

/-- The matrix with each column's maximum subtracted. -/
def colShift (s : (⟨S16384x16384, .f32⟩ : BufTy).Contents (Elt F)) : (⟨S16384x16384, .f32⟩ : BufTy).Contents (Elt F) :=
  subf s (broadcastInDim S16384x16384 ![0, 1] bcast_S1x16384_S16384x16384_0_1 (broadcastInDim S1x16384 ![1] bcast_S16384_S1x16384_1 (colMax s)))

/-- Each column's sum of exponentials, from zero. -/
def colSumExp (t : (⟨S16384x16384, .f32⟩ : BufTy).Contents (Elt F)) : (⟨S16384, .f32⟩ : BufTy).Contents (Elt F) :=
  Host.reduceAdd (Host.exp t) (constant S_ .f32 0x00000000#32) reducesTo_S16384x16384_S16384_d0 h_S_

/-- The log-softmax down the columns. -/
def colLsm (s : (⟨S16384x16384, .f32⟩ : BufTy).Contents (Elt F)) : (⟨S16384x16384, .f32⟩ : BufTy).Contents (Elt F) :=
  subf (colShift s) (broadcastInDim S16384x16384 ![0, 1] bcast_S1x16384_S16384x16384_0_1 (Host.log (broadcastInDim S1x16384 ![1] bcast_S16384_S1x16384_1 (colSumExp (colShift s)))))

/-- An index vector with its negative entries wrapped by 16384. -/
def wrapIdx (io : (⟨S16384, .i32⟩ : BufTy).Contents (Elt F)) : (⟨S16384, .i32⟩ : BufTy).Contents (Elt F) :=
  select (cmpi .slt io (broadcastInDim S16384 ![] bcast_S_S16384 (constantI S_ 32 0#32))) (addi io (broadcastInDim S16384 ![] bcast_S_S16384 (constantI S_ 32 16384#32))) io

/-- The index pairs (k, k): the wrapped index vector as a column, twice, side by side. -/
def diagIdx (io : (⟨S16384, .i32⟩ : BufTy).Contents (Elt F)) : (⟨S16384x2, .i32⟩ : BufTy).Contents (Elt F) :=
  concatenate S16384x2 1 [⟨S16384x1, (broadcastInDim S16384x1 ![0] bcast_S16384_S16384x1_0 (wrapIdx io))⟩, ⟨S16384x1, (broadcastInDim S16384x1 ![0] bcast_S16384_S16384x1_0 (wrapIdx io))⟩] concatenates_S16384x1_S16384x1_S16384x2_d1

/-- The negated mean of the matrix entries at the index pairs: gathered, summed from zero, divided by 16384, negated. -/
def negMeanDiag (v : (⟨S16384x16384, .f32⟩ : BufTy).Contents (Elt F)) (io : (⟨S16384, .i32⟩ : BufTy).Contents (Elt F)) : (⟨S_, .f32⟩ : BufTy).Contents (Elt F) :=
  Host.negf (Host.divf (Host.reduceAdd (Host.gather gather_S16384x16384_S16384x2_S16384_n_01_n_n_01_1_11 v (diagIdx io)) (constant S_ .f32 0x00000000#32) reducesTo_S16384_S_d0 h_S_) (constant S_ .f32 0x46800000#32))

/-- Half the sum of two scalars. -/
def halfSum (a b : (⟨S_, .f32⟩ : BufTy).Contents (Elt F)) : (⟨S_, .f32⟩ : BufTy).Contents (Elt F) :=
  mulf (addf a b) (constant S_ .f32 0x3F000000#32)

/-- The reference's result as a function of its two argument arrays, for any float values. -/
def refValF (x0 x1 : (⟨S16384x512, .f32⟩ : BufTy).Contents (Elt F)) : (⟨S_, .f32⟩ : BufTy).Contents (Elt F) :=
  halfSum (negMeanDiag (rowLsm (scores x0 x1)) iotaV) (negMeanDiag (colLsm (scores x0 x1)) iotaV)

/-! ## The program as a list of operations, whole and in six stretches -/

/-- @main's 85 operations, in order (a called function's operations stand in its call's place). -/
abbrev ops : List (HloOp τ sig (Elt F)) :=
  [ unary main_arg1 main_v0 ((transpose S512x16384 [1, 0] · transposes_S16384x512_S512x16384_1_0) : (⟨S16384x512, .f32⟩ : BufTy).Contents (Elt F) → (⟨S512x16384, .f32⟩ : BufTy).Contents (Elt F)),
    binary main_arg0 main_v0 main_v1 ((fun l r => Host.dotGeneral dot_S16384x512_S512x16384_S16384x16384_1_0_0_1_n_n none l r) : (⟨S16384x512, .f32⟩ : BufTy).Contents (Elt F) → (⟨S512x16384, .f32⟩ : BufTy).Contents (Elt F) → (⟨S16384x16384, .f32⟩ : BufTy).Contents (Elt F)),
    nullary main_cst (constant S_ .f32 0x3F800000#32),
    unary main_cst main_v2 (broadcastInDim S16384x16384 ![] bcast_S_S16384x16384 : (⟨S_, .f32⟩ : BufTy).Contents (Elt F) → (⟨S16384x16384, .f32⟩ : BufTy).Contents (Elt F)),
    binary main_v2 main_v1 main_v3 (mulf : (⟨S16384x16384, .f32⟩ : BufTy).Contents (Elt F) → (⟨S16384x16384, .f32⟩ : BufTy).Contents (Elt F) → (⟨S16384x16384, .f32⟩ : BufTy).Contents (Elt F)),
    nullary main_v4 (iotaInDim S16384 32 0),
    TRef.nullary (TRef.of (T := ⟨S_, .f32⟩) main_call0_cst) (constant S_ .f32 0xFF800000#32),
    TRef.binary (TRef.of (T := ⟨S16384x16384, .f32⟩) main_v3) (TRef.of (T := ⟨S_, .f32⟩) main_call0_cst) (TRef.of (T := ⟨S16384, .f32⟩) main_call0_v0) (fun x v => Host.reduce FloatOps.maximumf x v reducesTo_S16384x16384_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x16384, .f32⟩) main_call0_v4) (broadcastInDim S16384x16384 ![0, 1] bcast_S16384x1_S16384x16384_0_1),
    TRef.binary (TRef.of (T := ⟨S16384x16384, .f32⟩) main_v3) (TRef.of (T := ⟨S16384x16384, .f32⟩) main_call0_v4) (TRef.of (T := ⟨S16384x16384, .f32⟩) main_call0_v5) subf,
    TRef.unary (TRef.of (T := ⟨S16384x16384, .f32⟩) main_call0_v5) (TRef.of (T := ⟨S16384x16384, .f32⟩) main_call0_v6) Host.exp,
    TRef.nullary (TRef.of (T := ⟨S_, .f32⟩) main_call0_cst_1) (constant S_ .f32 0x00000000#32),
    TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x16384, .f32⟩) main_call0_v10) (broadcastInDim S16384x16384 ![0, 1] bcast_S16384x1_S16384x16384_0_1),
    TRef.binary (TRef.of (T := ⟨S16384x16384, .f32⟩) main_call0_v5) (TRef.of (T := ⟨S16384x16384, .f32⟩) main_call0_v10) (TRef.of (T := ⟨S16384x16384, .f32⟩) main_v5) subf,
    nullary main_c (constantI S_ 32 0#32),
    unary main_c main_v6 (broadcastInDim S16384 ![] bcast_S_S16384 : (⟨S_, .i32⟩ : BufTy).Contents (Elt F) → (⟨S16384, .i32⟩ : BufTy).Contents (Elt F)),
    binary main_v4 main_v6 main_v7 (cmpi .slt : (⟨S16384, .i32⟩ : BufTy).Contents (Elt F) → (⟨S16384, .i32⟩ : BufTy).Contents (Elt F) → (⟨S16384, .i1⟩ : BufTy).Contents (Elt F)),
    nullary main_c_0 (constantI S_ 32 16384#32),
    unary main_c_0 main_v8 (broadcastInDim S16384 ![] bcast_S_S16384 : (⟨S_, .i32⟩ : BufTy).Contents (Elt F) → (⟨S16384, .i32⟩ : BufTy).Contents (Elt F)),
    binary main_v4 main_v8 main_v9 (addi : (⟨S16384, .i32⟩ : BufTy).Contents (Elt F) → (⟨S16384, .i32⟩ : BufTy).Contents (Elt F) → (⟨S16384, .i32⟩ : BufTy).Contents (Elt F)),
    ternary main_v7 main_v9 main_v4 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_1 (constantI S_ 32 0#32),
    unary main_c_1 main_v11 (broadcastInDim S16384 ![] bcast_S_S16384 : (⟨S_, .i32⟩ : BufTy).Contents (Elt F) → (⟨S16384, .i32⟩ : BufTy).Contents (Elt F)),
    binary main_v4 main_v11 main_v12 (cmpi .slt : (⟨S16384, .i32⟩ : BufTy).Contents (Elt F) → (⟨S16384, .i32⟩ : BufTy).Contents (Elt F) → (⟨S16384, .i1⟩ : BufTy).Contents (Elt F)),
    nullary main_c_2 (constantI S_ 32 16384#32),
    unary main_c_2 main_v13 (broadcastInDim S16384 ![] bcast_S_S16384 : (⟨S_, .i32⟩ : BufTy).Contents (Elt F) → (⟨S16384, .i32⟩ : BufTy).Contents (Elt F)),
    binary main_v4 main_v13 main_v14 (addi : (⟨S16384, .i32⟩ : BufTy).Contents (Elt F) → (⟨S16384, .i32⟩ : BufTy).Contents (Elt F) → (⟨S16384, .i32⟩ : BufTy).Contents (Elt F)),
    ternary main_v12 main_v14 main_v4 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v10 main_v16 (broadcastInDim S16384x1 ![0] bcast_S16384_S16384x1_0 : (⟨S16384, .i32⟩ : BufTy).Contents (Elt F) → (⟨S16384x1, .i32⟩ : BufTy).Contents (Elt F)),
    unary main_v15 main_v17 (broadcastInDim S16384x1 ![0] bcast_S16384_S16384x1_0 : (⟨S16384, .i32⟩ : BufTy).Contents (Elt F) → (⟨S16384x1, .i32⟩ : BufTy).Contents (Elt F)),
    binary main_v16 main_v17 main_v18 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v5 main_v18 main_v19 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    nullary main_cst_3 (constant S_ .f32 0x00000000#32),
    binary main_v19 main_cst_3 main_v20 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v20 main_cst_4 main_v21 (Host.divf : (⟨S_, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)),
    TRef.nullary (TRef.of (T := ⟨S_, .f32⟩) main_call1_cst) (constant S_ .f32 0xFF800000#32),
    TRef.binary (TRef.of (T := ⟨S16384x16384, .f32⟩) main_v3) (TRef.of (T := ⟨S_, .f32⟩) main_call1_cst) (TRef.of (T := ⟨S16384, .f32⟩) main_call1_v0) (fun x v => Host.reduce FloatOps.maximumf x v reducesTo_S16384x16384_S16384_d0 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S1x16384, .f32⟩) main_call1_v3) (broadcastInDim S1x16384 ![1] bcast_S16384_S1x16384_1),
    TRef.unary (TRef.of (T := ⟨S1x16384, .f32⟩) main_call1_v3) (TRef.of (T := ⟨S16384x16384, .f32⟩) main_call1_v4) (broadcastInDim S16384x16384 ![0, 1] bcast_S1x16384_S16384x16384_0_1),
    TRef.binary (TRef.of (T := ⟨S16384x16384, .f32⟩) main_v3) (TRef.of (T := ⟨S16384x16384, .f32⟩) main_call1_v4) (TRef.of (T := ⟨S16384x16384, .f32⟩) main_call1_v5) subf,
    TRef.unary (TRef.of (T := ⟨S16384x16384, .f32⟩) main_call1_v5) (TRef.of (T := ⟨S16384x16384, .f32⟩) main_call1_v6) Host.exp,
    TRef.nullary (TRef.of (T := ⟨S_, .f32⟩) main_call1_cst_1) (constant S_ .f32 0x00000000#32),
    TRef.binary (TRef.of (T := ⟨S16384x16384, .f32⟩) main_call1_v6) (TRef.of (T := ⟨S_, .f32⟩) main_call1_cst_1) (TRef.of (T := ⟨S16384, .f32⟩) main_call1_v7) (fun x v => Host.reduceAdd x v reducesTo_S16384x16384_S16384_d0 h_S_),
    TRef.unary (TRef.of (T := ⟨S16384, .f32⟩) main_call1_v7) (TRef.of (T := ⟨S1x16384, .f32⟩) main_call1_v8) (broadcastInDim S1x16384 ![1] bcast_S16384_S1x16384_1),
    TRef.unary (TRef.of (T := ⟨S1x16384, .f32⟩) main_call1_v8) (TRef.of (T := ⟨S1x16384, .f32⟩) main_call1_v9) Host.log,
    TRef.unary (TRef.of (T := ⟨S1x16384, .f32⟩) main_call1_v9) (TRef.of (T := ⟨S16384x16384, .f32⟩) main_call1_v10) (broadcastInDim S16384x16384 ![0, 1] bcast_S1x16384_S16384x16384_0_1),
    TRef.binary (TRef.of (T := ⟨S16384x16384, .f32⟩) main_call1_v5) (TRef.of (T := ⟨S16384x16384, .f32⟩) main_call1_v10) (TRef.of (T := ⟨S16384x16384, .f32⟩) main_v23) subf,
    nullary main_c_5 (constantI S_ 32 0#32),
    unary main_c_5 main_v24 (broadcastInDim S16384 ![] bcast_S_S16384 : (⟨S_, .i32⟩ : BufTy).Contents (Elt F) → (⟨S16384, .i32⟩ : BufTy).Contents (Elt F)),
    binary main_v4 main_v24 main_v25 (cmpi .slt : (⟨S16384, .i32⟩ : BufTy).Contents (Elt F) → (⟨S16384, .i32⟩ : BufTy).Contents (Elt F) → (⟨S16384, .i1⟩ : BufTy).Contents (Elt F)),
    nullary main_c_6 (constantI S_ 32 16384#32),
    unary main_c_6 main_v26 (broadcastInDim S16384 ![] bcast_S_S16384 : (⟨S_, .i32⟩ : BufTy).Contents (Elt F) → (⟨S16384, .i32⟩ : BufTy).Contents (Elt F)),
    binary main_v4 main_v26 main_v27 (addi : (⟨S16384, .i32⟩ : BufTy).Contents (Elt F) → (⟨S16384, .i32⟩ : BufTy).Contents (Elt F) → (⟨S16384, .i32⟩ : BufTy).Contents (Elt F)),
    ternary main_v25 main_v27 main_v4 main_v28 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_7 (constantI S_ 32 0#32),
    unary main_c_7 main_v29 (broadcastInDim S16384 ![] bcast_S_S16384 : (⟨S_, .i32⟩ : BufTy).Contents (Elt F) → (⟨S16384, .i32⟩ : BufTy).Contents (Elt F)),
    binary main_v4 main_v29 main_v30 (cmpi .slt : (⟨S16384, .i32⟩ : BufTy).Contents (Elt F) → (⟨S16384, .i32⟩ : BufTy).Contents (Elt F) → (⟨S16384, .i1⟩ : BufTy).Contents (Elt F)),
    nullary main_c_8 (constantI S_ 32 16384#32),
    unary main_c_8 main_v31 (broadcastInDim S16384 ![] bcast_S_S16384 : (⟨S_, .i32⟩ : BufTy).Contents (Elt F) → (⟨S16384, .i32⟩ : BufTy).Contents (Elt F)),
    binary main_v4 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v4 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v28 main_v34 (broadcastInDim S16384x1 ![0] bcast_S16384_S16384x1_0 : (⟨S16384, .i32⟩ : BufTy).Contents (Elt F) → (⟨S16384x1, .i32⟩ : BufTy).Contents (Elt F)),
    unary main_v33 main_v35 (broadcastInDim S16384x1 ![0] bcast_S16384_S16384x1_0 : (⟨S16384, .i32⟩ : BufTy).Contents (Elt F) → (⟨S16384x1, .i32⟩ : BufTy).Contents (Elt F)),
    binary main_v34 main_v35 main_v36 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v23 main_v36 main_v37 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    nullary main_cst_9 (constant S_ .f32 0x00000000#32),
    binary main_v37 main_cst_9 main_v38 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_10 (constant S_ .f32 0x46800000#32),
    binary main_v38 main_cst_10 main_v39 (Host.divf : (⟨S_, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    binary main_v22 main_v40 main_v41 (addf : (⟨S_, .f32⟩ : BufTy).Contents (Elt F) → (⟨S_, .f32⟩ : BufTy).Contents (Elt F) → (⟨S_, .f32⟩ : BufTy).Contents (Elt F)),
    nullary main_cst_11 (constant S_ .f32 0x3F000000#32),
    binary main_v41 main_cst_11 main_v42 (mulf : (⟨S_, .f32⟩ : BufTy).Contents (Elt F) → (⟨S_, .f32⟩ : BufTy).Contents (Elt F) → (⟨S_, .f32⟩ : BufTy).Contents (Elt F)) ]

/-- Operations 1 to 6 of @main. -/
abbrev chunk1 : List (HloOp τ sig (Elt F)) :=
  [ unary main_arg1 main_v0 ((transpose S512x16384 [1, 0] · transposes_S16384x512_S512x16384_1_0) : (⟨S16384x512, .f32⟩ : BufTy).Contents (Elt F) → (⟨S512x16384, .f32⟩ : BufTy).Contents (Elt F)),
    binary main_arg0 main_v0 main_v1 ((fun l r => Host.dotGeneral dot_S16384x512_S512x16384_S16384x16384_1_0_0_1_n_n none l r) : (⟨S16384x512, .f32⟩ : BufTy).Contents (Elt F) → (⟨S512x16384, .f32⟩ : BufTy).Contents (Elt F) → (⟨S16384x16384, .f32⟩ : BufTy).Contents (Elt F)),
    nullary main_cst (constant S_ .f32 0x3F800000#32),
    unary main_cst main_v2 (broadcastInDim S16384x16384 ![] bcast_S_S16384x16384 : (⟨S_, .f32⟩ : BufTy).Contents (Elt F) → (⟨S16384x16384, .f32⟩ : BufTy).Contents (Elt F)),
    binary main_v2 main_v1 main_v3 (mulf : (⟨S16384x16384, .f32⟩ : BufTy).Contents (Elt F) → (⟨S16384x16384, .f32⟩ : BufTy).Contents (Elt F) → (⟨S16384x16384, .f32⟩ : BufTy).Contents (Elt F)),
    nullary main_v4 (iotaInDim S16384 32 0) ]

/-- Operations 7 to 21 of @main. -/
abbrev chunk2 : List (HloOp τ sig (Elt F)) :=
  [ TRef.nullary (TRef.of (T := ⟨S_, .f32⟩) main_call0_cst) (constant S_ .f32 0xFF800000#32),
    TRef.binary (TRef.of (T := ⟨S16384x16384, .f32⟩) main_v3) (TRef.of (T := ⟨S_, .f32⟩) main_call0_cst) (TRef.of (T := ⟨S16384, .f32⟩) main_call0_v0) (fun x v => Host.reduce FloatOps.maximumf x v reducesTo_S16384x16384_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x16384, .f32⟩) main_call0_v4) (broadcastInDim S16384x16384 ![0, 1] bcast_S16384x1_S16384x16384_0_1),
    TRef.binary (TRef.of (T := ⟨S16384x16384, .f32⟩) main_v3) (TRef.of (T := ⟨S16384x16384, .f32⟩) main_call0_v4) (TRef.of (T := ⟨S16384x16384, .f32⟩) main_call0_v5) subf,
    TRef.unary (TRef.of (T := ⟨S16384x16384, .f32⟩) main_call0_v5) (TRef.of (T := ⟨S16384x16384, .f32⟩) main_call0_v6) Host.exp,
    TRef.nullary (TRef.of (T := ⟨S_, .f32⟩) main_call0_cst_1) (constant S_ .f32 0x00000000#32),
    TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x16384, .f32⟩) main_call0_v10) (broadcastInDim S16384x16384 ![0, 1] bcast_S16384x1_S16384x16384_0_1),
    TRef.binary (TRef.of (T := ⟨S16384x16384, .f32⟩) main_call0_v5) (TRef.of (T := ⟨S16384x16384, .f32⟩) main_call0_v10) (TRef.of (T := ⟨S16384x16384, .f32⟩) main_v5) subf ]

/-- Operations 22 to 44 of @main. -/
abbrev chunk3 : List (HloOp τ sig (Elt F)) :=
  [ nullary main_c (constantI S_ 32 0#32),
    unary main_c main_v6 (broadcastInDim S16384 ![] bcast_S_S16384 : (⟨S_, .i32⟩ : BufTy).Contents (Elt F) → (⟨S16384, .i32⟩ : BufTy).Contents (Elt F)),
    binary main_v4 main_v6 main_v7 (cmpi .slt : (⟨S16384, .i32⟩ : BufTy).Contents (Elt F) → (⟨S16384, .i32⟩ : BufTy).Contents (Elt F) → (⟨S16384, .i1⟩ : BufTy).Contents (Elt F)),
    nullary main_c_0 (constantI S_ 32 16384#32),
    unary main_c_0 main_v8 (broadcastInDim S16384 ![] bcast_S_S16384 : (⟨S_, .i32⟩ : BufTy).Contents (Elt F) → (⟨S16384, .i32⟩ : BufTy).Contents (Elt F)),
    binary main_v4 main_v8 main_v9 (addi : (⟨S16384, .i32⟩ : BufTy).Contents (Elt F) → (⟨S16384, .i32⟩ : BufTy).Contents (Elt F) → (⟨S16384, .i32⟩ : BufTy).Contents (Elt F)),
    ternary main_v7 main_v9 main_v4 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_1 (constantI S_ 32 0#32),
    unary main_c_1 main_v11 (broadcastInDim S16384 ![] bcast_S_S16384 : (⟨S_, .i32⟩ : BufTy).Contents (Elt F) → (⟨S16384, .i32⟩ : BufTy).Contents (Elt F)),
    binary main_v4 main_v11 main_v12 (cmpi .slt : (⟨S16384, .i32⟩ : BufTy).Contents (Elt F) → (⟨S16384, .i32⟩ : BufTy).Contents (Elt F) → (⟨S16384, .i1⟩ : BufTy).Contents (Elt F)),
    nullary main_c_2 (constantI S_ 32 16384#32),
    unary main_c_2 main_v13 (broadcastInDim S16384 ![] bcast_S_S16384 : (⟨S_, .i32⟩ : BufTy).Contents (Elt F) → (⟨S16384, .i32⟩ : BufTy).Contents (Elt F)),
    binary main_v4 main_v13 main_v14 (addi : (⟨S16384, .i32⟩ : BufTy).Contents (Elt F) → (⟨S16384, .i32⟩ : BufTy).Contents (Elt F) → (⟨S16384, .i32⟩ : BufTy).Contents (Elt F)),
    ternary main_v12 main_v14 main_v4 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v10 main_v16 (broadcastInDim S16384x1 ![0] bcast_S16384_S16384x1_0 : (⟨S16384, .i32⟩ : BufTy).Contents (Elt F) → (⟨S16384x1, .i32⟩ : BufTy).Contents (Elt F)),
    unary main_v15 main_v17 (broadcastInDim S16384x1 ![0] bcast_S16384_S16384x1_0 : (⟨S16384, .i32⟩ : BufTy).Contents (Elt F) → (⟨S16384x1, .i32⟩ : BufTy).Contents (Elt F)),
    binary main_v16 main_v17 main_v18 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v5 main_v18 main_v19 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    nullary main_cst_3 (constant S_ .f32 0x00000000#32),
    binary main_v19 main_cst_3 main_v20 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v20 main_cst_4 main_v21 (Host.divf : (⟨S_, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)) ]

/-- Operations 45 to 59 of @main. -/
abbrev chunk4 : List (HloOp τ sig (Elt F)) :=
  [ TRef.nullary (TRef.of (T := ⟨S_, .f32⟩) main_call1_cst) (constant S_ .f32 0xFF800000#32),
    TRef.binary (TRef.of (T := ⟨S16384x16384, .f32⟩) main_v3) (TRef.of (T := ⟨S_, .f32⟩) main_call1_cst) (TRef.of (T := ⟨S16384, .f32⟩) main_call1_v0) (fun x v => Host.reduce FloatOps.maximumf x v reducesTo_S16384x16384_S16384_d0 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S1x16384, .f32⟩) main_call1_v3) (broadcastInDim S1x16384 ![1] bcast_S16384_S1x16384_1),
    TRef.unary (TRef.of (T := ⟨S1x16384, .f32⟩) main_call1_v3) (TRef.of (T := ⟨S16384x16384, .f32⟩) main_call1_v4) (broadcastInDim S16384x16384 ![0, 1] bcast_S1x16384_S16384x16384_0_1),
    TRef.binary (TRef.of (T := ⟨S16384x16384, .f32⟩) main_v3) (TRef.of (T := ⟨S16384x16384, .f32⟩) main_call1_v4) (TRef.of (T := ⟨S16384x16384, .f32⟩) main_call1_v5) subf,
    TRef.unary (TRef.of (T := ⟨S16384x16384, .f32⟩) main_call1_v5) (TRef.of (T := ⟨S16384x16384, .f32⟩) main_call1_v6) Host.exp,
    TRef.nullary (TRef.of (T := ⟨S_, .f32⟩) main_call1_cst_1) (constant S_ .f32 0x00000000#32),
    TRef.binary (TRef.of (T := ⟨S16384x16384, .f32⟩) main_call1_v6) (TRef.of (T := ⟨S_, .f32⟩) main_call1_cst_1) (TRef.of (T := ⟨S16384, .f32⟩) main_call1_v7) (fun x v => Host.reduceAdd x v reducesTo_S16384x16384_S16384_d0 h_S_),
    TRef.unary (TRef.of (T := ⟨S16384, .f32⟩) main_call1_v7) (TRef.of (T := ⟨S1x16384, .f32⟩) main_call1_v8) (broadcastInDim S1x16384 ![1] bcast_S16384_S1x16384_1),
    TRef.unary (TRef.of (T := ⟨S1x16384, .f32⟩) main_call1_v8) (TRef.of (T := ⟨S1x16384, .f32⟩) main_call1_v9) Host.log,
    TRef.unary (TRef.of (T := ⟨S1x16384, .f32⟩) main_call1_v9) (TRef.of (T := ⟨S16384x16384, .f32⟩) main_call1_v10) (broadcastInDim S16384x16384 ![0, 1] bcast_S1x16384_S16384x16384_0_1),
    TRef.binary (TRef.of (T := ⟨S16384x16384, .f32⟩) main_call1_v5) (TRef.of (T := ⟨S16384x16384, .f32⟩) main_call1_v10) (TRef.of (T := ⟨S16384x16384, .f32⟩) main_v23) subf ]

/-- Operations 60 to 82 of @main. -/
abbrev chunk5 : List (HloOp τ sig (Elt F)) :=
  [ nullary main_c_5 (constantI S_ 32 0#32),
    unary main_c_5 main_v24 (broadcastInDim S16384 ![] bcast_S_S16384 : (⟨S_, .i32⟩ : BufTy).Contents (Elt F) → (⟨S16384, .i32⟩ : BufTy).Contents (Elt F)),
    binary main_v4 main_v24 main_v25 (cmpi .slt : (⟨S16384, .i32⟩ : BufTy).Contents (Elt F) → (⟨S16384, .i32⟩ : BufTy).Contents (Elt F) → (⟨S16384, .i1⟩ : BufTy).Contents (Elt F)),
    nullary main_c_6 (constantI S_ 32 16384#32),
    unary main_c_6 main_v26 (broadcastInDim S16384 ![] bcast_S_S16384 : (⟨S_, .i32⟩ : BufTy).Contents (Elt F) → (⟨S16384, .i32⟩ : BufTy).Contents (Elt F)),
    binary main_v4 main_v26 main_v27 (addi : (⟨S16384, .i32⟩ : BufTy).Contents (Elt F) → (⟨S16384, .i32⟩ : BufTy).Contents (Elt F) → (⟨S16384, .i32⟩ : BufTy).Contents (Elt F)),
    ternary main_v25 main_v27 main_v4 main_v28 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_7 (constantI S_ 32 0#32),
    unary main_c_7 main_v29 (broadcastInDim S16384 ![] bcast_S_S16384 : (⟨S_, .i32⟩ : BufTy).Contents (Elt F) → (⟨S16384, .i32⟩ : BufTy).Contents (Elt F)),
    binary main_v4 main_v29 main_v30 (cmpi .slt : (⟨S16384, .i32⟩ : BufTy).Contents (Elt F) → (⟨S16384, .i32⟩ : BufTy).Contents (Elt F) → (⟨S16384, .i1⟩ : BufTy).Contents (Elt F)),
    nullary main_c_8 (constantI S_ 32 16384#32),
    unary main_c_8 main_v31 (broadcastInDim S16384 ![] bcast_S_S16384 : (⟨S_, .i32⟩ : BufTy).Contents (Elt F) → (⟨S16384, .i32⟩ : BufTy).Contents (Elt F)),
    binary main_v4 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v4 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v28 main_v34 (broadcastInDim S16384x1 ![0] bcast_S16384_S16384x1_0 : (⟨S16384, .i32⟩ : BufTy).Contents (Elt F) → (⟨S16384x1, .i32⟩ : BufTy).Contents (Elt F)),
    unary main_v33 main_v35 (broadcastInDim S16384x1 ![0] bcast_S16384_S16384x1_0 : (⟨S16384, .i32⟩ : BufTy).Contents (Elt F) → (⟨S16384x1, .i32⟩ : BufTy).Contents (Elt F)),
    binary main_v34 main_v35 main_v36 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v23 main_v36 main_v37 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    nullary main_cst_9 (constant S_ .f32 0x00000000#32),
    binary main_v37 main_cst_9 main_v38 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_10 (constant S_ .f32 0x46800000#32),
    binary main_v38 main_cst_10 main_v39 (Host.divf : (⟨S_, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)) ]

/-- Operations 83 to 85 of @main. -/
abbrev chunk6 : List (HloOp τ sig (Elt F)) :=
  [ binary main_v22 main_v40 main_v41 (addf : (⟨S_, .f32⟩ : BufTy).Contents (Elt F) → (⟨S_, .f32⟩ : BufTy).Contents (Elt F) → (⟨S_, .f32⟩ : BufTy).Contents (Elt F)),
    nullary main_cst_11 (constant S_ .f32 0x3F000000#32),
    binary main_v41 main_cst_11 main_v42 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub ..⟩

set_option maxRecDepth 8192 in
theorem ops_eq : (ops : List (HloOp τ sig (Elt F))) = chunk1 ++ (chunk2 ++ (chunk3 ++ (chunk4 ++ (chunk5 ++ chunk6)))) := rfl

/-! ## Each stretch from arbitrary contents -/

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, _, _⟩ := x
  subst h
  rfl

theorem chunk1_v3 (W : Valuation τ sig (Elt F)) :
    after chunk1 W (Proc.devRef .tc main_v3) = scores (W (Proc.devRef .tc main_arg0)) (W (Proc.devRef .tc main_arg1)) := by
  after_results_simp <;> rfl
theorem chunk1_v4 (W : Valuation τ sig (Elt F)) : after chunk1 W (Proc.devRef .tc main_v4) = iotaV := by
  after_results_simp <;> rfl
theorem chunk1_arg0 (W : Valuation τ sig (Elt F)) : after chunk1 W (Proc.devRef .tc main_arg0) = W (Proc.devRef .tc main_arg0) := by
  after_results_simp
theorem chunk1_arg1 (W : Valuation τ sig (Elt F)) : after chunk1 W (Proc.devRef .tc main_arg1) = W (Proc.devRef .tc main_arg1) := by
  after_results_simp

theorem chunk2_v5 (W : Valuation τ sig (Elt F)) : after chunk2 W (Proc.devRef .tc main_v5) = rowLsm (W (Proc.devRef .tc main_v3)) := by
  after_results_simp
  simp only [ofBuf_toBuf]
  rfl
theorem chunk2_v3 (W : Valuation τ sig (Elt F)) : after chunk2 W (Proc.devRef .tc main_v3) = W (Proc.devRef .tc main_v3) := by
  after_results_simp
theorem chunk2_v4 (W : Valuation τ sig (Elt F)) : after chunk2 W (Proc.devRef .tc main_v4) = W (Proc.devRef .tc main_v4) := by
  after_results_simp
theorem chunk2_arg0 (W : Valuation τ sig (Elt F)) : after chunk2 W (Proc.devRef .tc main_arg0) = W (Proc.devRef .tc main_arg0) := by
  after_results_simp
theorem chunk2_arg1 (W : Valuation τ sig (Elt F)) : after chunk2 W (Proc.devRef .tc main_arg1) = W (Proc.devRef .tc main_arg1) := by
  after_results_simp

theorem chunk3_v22 (W : Valuation τ sig (Elt F)) :
    after chunk3 W (Proc.devRef .tc main_v22) = negMeanDiag (W (Proc.devRef .tc main_v5)) (W (Proc.devRef .tc main_v4)) := by
  after_results_simp <;> rfl
theorem chunk3_v3 (W : Valuation τ sig (Elt F)) : after chunk3 W (Proc.devRef .tc main_v3) = W (Proc.devRef .tc main_v3) := by
  after_results_simp
theorem chunk3_v4 (W : Valuation τ sig (Elt F)) : after chunk3 W (Proc.devRef .tc main_v4) = W (Proc.devRef .tc main_v4) := by
  after_results_simp
theorem chunk3_arg0 (W : Valuation τ sig (Elt F)) : after chunk3 W (Proc.devRef .tc main_arg0) = W (Proc.devRef .tc main_arg0) := by
  after_results_simp
theorem chunk3_arg1 (W : Valuation τ sig (Elt F)) : after chunk3 W (Proc.devRef .tc main_arg1) = W (Proc.devRef .tc main_arg1) := by
  after_results_simp

theorem chunk4_v23 (W : Valuation τ sig (Elt F)) : after chunk4 W (Proc.devRef .tc main_v23) = colLsm (W (Proc.devRef .tc main_v3)) := by
  after_results_simp
  simp only [ofBuf_toBuf]
  rfl
theorem chunk4_v4 (W : Valuation τ sig (Elt F)) : after chunk4 W (Proc.devRef .tc main_v4) = W (Proc.devRef .tc main_v4) := by
  after_results_simp
theorem chunk4_v22 (W : Valuation τ sig (Elt F)) : after chunk4 W (Proc.devRef .tc main_v22) = W (Proc.devRef .tc main_v22) := by
  after_results_simp
theorem chunk4_arg0 (W : Valuation τ sig (Elt F)) : after chunk4 W (Proc.devRef .tc main_arg0) = W (Proc.devRef .tc main_arg0) := by
  after_results_simp
theorem chunk4_arg1 (W : Valuation τ sig (Elt F)) : after chunk4 W (Proc.devRef .tc main_arg1) = W (Proc.devRef .tc main_arg1) := by
  after_results_simp

theorem chunk5_v40 (W : Valuation τ sig (Elt F)) :
    after chunk5 W (Proc.devRef .tc main_v40) = negMeanDiag (W (Proc.devRef .tc main_v23)) (W (Proc.devRef .tc main_v4)) := by
  after_results_simp <;> rfl
theorem chunk5_v22 (W : Valuation τ sig (Elt F)) : after chunk5 W (Proc.devRef .tc main_v22) = W (Proc.devRef .tc main_v22) := by
  after_results_simp
theorem chunk5_arg0 (W : Valuation τ sig (Elt F)) : after chunk5 W (Proc.devRef .tc main_arg0) = W (Proc.devRef .tc main_arg0) := by
  after_results_simp
theorem chunk5_arg1 (W : Valuation τ sig (Elt F)) : after chunk5 W (Proc.devRef .tc main_arg1) = W (Proc.devRef .tc main_arg1) := by
  after_results_simp

theorem chunk6_v42 (W : Valuation τ sig (Elt F)) :
    after chunk6 W (Proc.devRef .tc main_v42) = halfSum (W (Proc.devRef .tc main_v22)) (W (Proc.devRef .tc main_v40)) := by
  after_results_simp <;> rfl
theorem chunk6_arg0 (W : Valuation τ sig (Elt F)) : after chunk6 W (Proc.devRef .tc main_arg0) = W (Proc.devRef .tc main_arg0) := by
  after_results_simp
theorem chunk6_arg1 (W : Valuation τ sig (Elt F)) : after chunk6 W (Proc.devRef .tc main_arg1) = W (Proc.devRef .tc main_arg1) := by
  after_results_simp

/-! ## The whole program -/

/-- The contents after the whole program are the contents after the six stretches in turn. -/
theorem after_ops (V : Valuation τ sig (Elt F)) :
    after ops V = after chunk6 (after chunk5 (after chunk4 (after chunk3 (after chunk2 (after chunk1 V))))) :=
  (congrArg (fun l => after l V) ops_eq).trans (by simp only [Cert.LibStagedRun.after_append])

theorem after_ops_v42 (V : Valuation τ sig (Elt F)) :
    after ops V (Proc.devRef .tc main_v42) = refValF (V (Proc.devRef .tc main_arg0)) (V (Proc.devRef .tc main_arg1)) := by
  rw [after_ops, chunk6_v42, chunk5_v40, chunk5_v22, chunk4_v22, chunk3_v22, chunk4_v23, chunk4_v4, chunk3_v3, chunk3_v4,
    chunk2_v5, chunk2_v3, chunk2_v4, chunk1_v3, chunk1_v4]
  rfl

theorem after_ops_arg0 (V : Valuation τ sig (Elt F)) : after ops V (Proc.devRef .tc main_arg0) = V (Proc.devRef .tc main_arg0) := by
  rw [after_ops, chunk6_arg0, chunk5_arg0, chunk4_arg0, chunk3_arg0, chunk2_arg0, chunk1_arg0]

theorem after_ops_arg1 (V : Valuation τ sig (Elt F)) : after ops V (Proc.devRef .tc main_arg1) = V (Proc.devRef .tc main_arg1) := by
  rw [after_ops, chunk6_arg1, chunk5_arg1, chunk4_arg1, chunk3_arg1, chunk2_arg1, chunk1_arg1]

set_option maxRecDepth 8192 in
set_option maxHeartbeats 34000000 in
/-- On every device, for any float values, from any memory with zero counters: every weakly fair execution of
    @main terminates with the result buffer at `refValF` of the two arguments' launch contents, the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = refValF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (after_ops_v42 _),
      (h c main_arg0).trans (after_ops_arg0 _),
      (h c main_arg1).trans (after_ops_arg1 _)⟩)
    (run_seq scopedRefs_eq scopedSems_eq defs main (fun _ => ops) main_eq (fun _ => ops_sub) m ρ)

end Cert.RefSide

end
-- ==== Proof.LibHostBroadcast.lean ====
/- Host broadcasts of a column, a row and a vector, read at an index.

   A host program that divides each row of an [a, b] array by a per-row number keeps that number as an [a, 1] column
   and broadcasts it along the rows; one that adds a bias vector of length b to every row first lays it out as a
   [1, b] row and then broadcasts the row down the a rows. Read at (p, c): the column's entry p, the row's entry c,
   the vector's entry c. -/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast to [a, b] along the rows reads, at (p, c), the column at row p. -/
theorem col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A [1, b] row broadcast to [a, b] down the rows reads, at (p, c), the row at column c. -/
theorem row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector of length b laid out as a [1, b] row reads, at (u, c), the vector at c. -/
theorem vec_row_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

end Cert.LibHostBroadcast
-- ==== Proof.RefRead.lean ====
/-
  The reference's staged functions read at an index, on the extended reals.

  Every float is an extended real and every operation exact. The constants the program spells are 1, 1/2, 16384, zero
  and minus infinity. Entry (i, j) of the score matrix is the sum over k of the first argument at (i, k) times the second
  at (j, k). A row (column) maximum taken from minus infinity over real entries is a real number b; the log-softmax
  entry is (L i j − b) − log (0 + Σ exp (L i q − b)) = L i j − log Σ exp (L i q), whatever real number b is. The index
  pairs are (k, k): the iota is nonnegative, so the wrap of negative indices leaves it alone; the gather then reads the
  diagonal. The scalar tail is zero plus the sum, divided by 16384, negated.
-/
import proofs.«160572_j54692113547585_2_alg».proof.Proof.RefRun
import proofs.«160572_j54692113547585_2_alg».proof.Proof.ClipSpec
import proofs.«160572_j54692113547585_2_alg».proof.Proof.LseMath
import proofs.«160572_j54692113547585_2_alg».proof.Proof.LibLogSumExp
import proofs.«160572_j54692113547585_2_alg».proof.Proof.LibHostBroadcast
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.ValueIdx

/-! ## The constants -/

theorem ofBits_one : Ideal.ofBits .f32 0x3F800000#32 = 1 := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num
theorem ofBits_negInf : Ideal.ofBits .f32 0xFF800000#32 = ⊥ := by
  simp [Ideal.ofBits, Ideal.ieee]

/-! ## Layout operations at an index -/

/-- A scalar spread over a vector. -/
theorem scalarToVec_apply {α : Type} (v : S_.Idx → α) (i : Fin 16384) :
    broadcastInDim S16384 ![] bcast_S_S16384 v (ix1 i) = v ix0 :=
  broadcastInDim_apply _ bcast_S_S16384 v (ix1 i) ix0 (fun a => a.elim0)

/-- A scalar spread over the matrix. -/
theorem scalarToMat_apply {α : Type} (v : S_.Idx → α) (i j : Fin 16384) :
    broadcastInDim S16384x16384 ![] bcast_S_S16384x16384 v (ix2 i j) = v ix0 :=
  broadcastInDim_apply _ bcast_S_S16384x16384 v (ix2 i j) ix0 (fun a => a.elim0)

/-- A vector laid as a column. -/
theorem vecToCol_apply {α : Type} (v : S16384.Idx → α) (i : Fin 16384) (u : Fin 1) :
    broadcastInDim S16384x1 ![0] bcast_S16384_S16384x1_0 v (ix2 i u) = v (ix1 i) :=
  broadcastInDim_apply _ bcast_S16384_S16384x1_0 v (ix2 i u) (ix1 i) (fun a => match a with
    | ⟨0, _⟩ => by show i.val = if (16384 : Nat) = 1 then 0 else i.val; rw [if_neg (by decide)])

/-- A vector laid as a row. -/
theorem vecToRow_apply {α : Type} (v : S16384.Idx → α) (u : Fin 1) (j : Fin 16384) :
    broadcastInDim S1x16384 ![1] bcast_S16384_S1x16384_1 v (ix2 u j) = v (ix1 j) :=
  broadcastInDim_apply _ bcast_S16384_S1x16384_1 v (ix2 u j) (ix1 j) (fun a => match a with
    | ⟨0, _⟩ => by show j.val = if (16384 : Nat) = 1 then 0 else j.val; rw [if_neg (by decide)])

/-- A column spread over the matrix. -/
theorem colToMat_apply {α : Type} (v : S16384x1.Idx → α) (i j : Fin 16384) :
    broadcastInDim S16384x16384 ![0, 1] bcast_S16384x1_S16384x16384_0_1 v (ix2 i j) = v (ix2 i (0 : Fin 1)) :=
  broadcastInDim_apply _ bcast_S16384x1_S16384x16384_0_1 v (ix2 i j) (ix2 i (0 : Fin 1)) (fun a => match a with
    | ⟨0, _⟩ => by show i.val = if (16384 : Nat) = 1 then 0 else i.val; rw [if_neg (by decide)]
    | ⟨1, _⟩ => by show 0 = if (1 : Nat) = 1 then 0 else j.val; rw [if_pos rfl])

/-- A row spread over the matrix. -/
theorem rowToMat_apply {α : Type} (v : S1x16384.Idx → α) (i j : Fin 16384) :
    broadcastInDim S16384x16384 ![0, 1] bcast_S1x16384_S16384x16384_0_1 v (ix2 i j) = v (ix2 (0 : Fin 1) j) :=
  broadcastInDim_apply _ bcast_S1x16384_S16384x16384_0_1 v (ix2 i j) (ix2 (0 : Fin 1) j) (fun a => match a with
    | ⟨0, _⟩ => by show 0 = if (1 : Nat) = 1 then 0 else i.val; rw [if_pos rfl]
    | ⟨1, _⟩ => by show j.val = if (16384 : Nat) = 1 then 0 else j.val; rw [if_neg (by decide)])

/-! ## The score matrix -/

theorem lhs_0 (i : S16384x16384.Idx) (q : dot_S16384x512_S512x16384_S16384x16384_1_0_0_1_n_n.contr.Idx) :
    (dot_S16384x512_S512x16384_S16384x16384_1_0_0_1_n_n.lhsIdx i q 0).val = (i 0).val := by
  unfold DotDims.lhsIdx
  rw [dif_neg (show ¬(0 : Fin S16384x512.rank) ∈ dot_S16384x512_S512x16384_S16384x16384_1_0_0_1_n_n.lhsBatch by decide), dif_pos (show (0 : Fin S16384x512.rank) ∈ dot_S16384x512_S512x16384_S16384x16384_1_0_0_1_n_n.lhsNonContracting by decide)]
  rfl
theorem lhs_1 (i : S16384x16384.Idx) (q : dot_S16384x512_S512x16384_S16384x16384_1_0_0_1_n_n.contr.Idx) :
    (dot_S16384x512_S512x16384_S16384x16384_1_0_0_1_n_n.lhsIdx i q 1).val = (q ⟨0, by decide⟩).val :=
  dot_S16384x512_S512x16384_S16384x16384_1_0_0_1_n_n.lhsIdx_val_of_single rfl i q
theorem rhs_0 (i : S16384x16384.Idx) (q : dot_S16384x512_S512x16384_S16384x16384_1_0_0_1_n_n.contr.Idx) :
    (dot_S16384x512_S512x16384_S16384x16384_1_0_0_1_n_n.rhsIdx i q 0).val = (q ⟨0, by decide⟩).val :=
  dot_S16384x512_S512x16384_S16384x16384_1_0_0_1_n_n.rhsIdx_val_of_single rfl i q
theorem rhs_1 (i : S16384x16384.Idx) (q : dot_S16384x512_S512x16384_S16384x16384_1_0_0_1_n_n.contr.Idx) :
    (dot_S16384x512_S512x16384_S16384x16384_1_0_0_1_n_n.rhsIdx i q 1).val = (i 1).val := by
  unfold DotDims.rhsIdx
  rw [dif_neg (show ¬(1 : Fin S512x16384.rank) ∈ dot_S16384x512_S512x16384_S16384x16384_1_0_0_1_n_n.rhsBatch by decide), dif_pos (show (1 : Fin S512x16384.rank) ∈ dot_S16384x512_S512x16384_S16384x16384_1_0_0_1_n_n.rhsNonContracting by decide)]
  rfl

/-- Entry (i, j) of the score matrix: the sum over k of the first argument at (i, k) times the second at (j, k). -/
theorem scores_apply (x0 x1 : (⟨S16384x512, .f32⟩ : BufTy).Contents (Elt Ideal)) (i j : Fin 16384) :
    scores (F := Ideal) x0 x1 (ix2 i j) = ∑ k : Fin 512, x0 (ix2 i k) * x1 (ix2 j k) := by
  unfold scores
  refine (mulf_apply _ _ _).trans ?_
  rw [scalarToMat_apply, constant_apply, ofBits_one, one_mul]
  generalize hy : transpose S512x16384 [1, 0] x1 transposes_S16384x512_S512x16384_1_0 = y0
  simp only [Host.dotGeneral]
  rw [Ideal.dotGeneral_apply, ← Equiv.sum_comp (ValueIdx.contrEquiv1 dot_S16384x512_S512x16384_S16384x16384_1_0_0_1_n_n 512 rfl rfl).symm]
  refine Finset.sum_congr rfl fun k _ => ?_
  have hk := ValueIdx.contrEquiv1_symm_val dot_S16384x512_S512x16384_S16384x16384_1_0_0_1_n_n 512 rfl rfl k
  have el : dot_S16384x512_S512x16384_S16384x16384_1_0_0_1_n_n.lhsIdx (ix2 i j) ((ValueIdx.contrEquiv1 dot_S16384x512_S512x16384_S16384x16384_1_0_0_1_n_n 512 rfl rfl).symm k) = ix2 i k := funext fun a => Fin.ext (by
    match a with
    | ⟨0, _⟩ => exact lhs_0 _ _
    | ⟨1, _⟩ => exact (lhs_1 _ _).trans hk)
  have er : dot_S16384x512_S512x16384_S16384x16384_1_0_0_1_n_n.rhsIdx (ix2 i j) ((ValueIdx.contrEquiv1 dot_S16384x512_S512x16384_S16384x16384_1_0_0_1_n_n 512 rfl rfl).symm k) = ix2 k j := funext fun a => Fin.ext (by
    match a with
    | ⟨0, _⟩ => exact (rhs_0 _ _).trans hk
    | ⟨1, _⟩ => exact rhs_1 _ _)
  rw [el, er, ← hy]
  congr 1
  exact transpose_apply [1, 0] x1 transposes_S16384x512_S512x16384_1_0 (ix2 k j) (ix2 j k) (fun b => match b with
    | ⟨0, _⟩ => rfl
    | ⟨1, _⟩ => rfl)

/-- Over real arguments the score matrix is the matrix of real scores. -/
theorem scores_real (x0 x1 : (⟨S16384x512, .f32⟩ : BufTy).Contents (Elt Ideal)) (A B : Cert.ClipSpec.Mat)
    (hA : ∀ (i : Fin 16384) (k : Fin 512), x0 (ix2 i k) = ((A i k : ℝ) : EReal))
    (hB : ∀ (i : Fin 16384) (k : Fin 512), x1 (ix2 i k) = ((B i k : ℝ) : EReal)) (i j : Fin 16384) :
    scores (F := Ideal) x0 x1 (ix2 i j) = ((Cert.ClipSpec.logit A B i j : ℝ) : EReal) := by
  rw [scores_apply, Cert.ClipSpec.logit, Cert.Lib.LogSumExp.coe_finsum]
  exact Finset.sum_congr rfl fun k _ => by rw [hA, hB, EReal.coe_mul]

/-! ## Maxima, sums of exponentials and the log-softmax, along the rows -/

/-- A row with the reduced coordinate put back. -/
theorem liftRow (h : S16384x16384.Reduces [1] S16384) (i : Fin 16384) (q : Fin 16384) : h.lift (ix1 i) q = ix2 i q :=
  funext fun c => Fin.ext (by match c with | ⟨0, _⟩ => rfl | ⟨1, _⟩ => rfl)

/-- The row maximum: the larger of minus infinity and the maximum from minus infinity of the row's entries. -/
theorem rowMax_apply (s : (⟨S16384x16384, .f32⟩ : BufTy).Contents (Elt Ideal)) (i : Fin 16384) :
    rowMax (F := Ideal) s (ix1 i) = max ⊥ ((Finset.univ : Finset (Fin 16384)).fold max ⊥ fun q => s (ix2 i q)) := by
  unfold rowMax
  refine (maximumf_apply _ _ _).trans ?_
  rw [scalarToVec_apply, constant_apply, ofBits_negInf]
  have hR : S16384x16384.Reduces [1] S16384 := by decide
  refine congrArg (max ⊥) ?_
  refine (Host.reduce_eq_fold_single (α := Ideal .f32) (s := S16384x16384) (t := S16384) (FloatOps.maximumf (F := Ideal) (φ := .f32)) s _ reducesTo_S16384x16384_S16384_d1 hR h_S_ (ix1 i)).trans ?_
  rw [constant_apply, ofBits_negInf]
  exact congrArg (fun f => (Finset.univ : Finset (Fin 16384)).fold max ⊥ f) (funext fun q => congrArg s (liftRow hR i q))

/-- Over real entries the row maximum is a real number. -/
theorem rowMax_real (s : (⟨S16384x16384, .f32⟩ : BufTy).Contents (Elt Ideal)) (L : Fin 16384 → Fin 16384 → ℝ)
    (hs : ∀ i j : Fin 16384, s (ix2 i j) = ((L i j : ℝ) : EReal)) (i : Fin 16384) :
    ∃ b : ℝ, rowMax (F := Ideal) s (ix1 i) = (b : EReal) := by
  obtain ⟨b, hb⟩ := Cert.LseMath.fold_max_coe (n := 16384) (by norm_num) (fun q => L i q)
  refine ⟨b, ?_⟩
  rw [rowMax_apply]
  simp only [hs]
  rw [hb]
  exact max_eq_right bot_le

/-- The row sum of exponentials: zero plus the sum over the row. -/
theorem rowSumExp_apply (t : (⟨S16384x16384, .f32⟩ : BufTy).Contents (Elt Ideal)) (i : Fin 16384) :
    rowSumExp (F := Ideal) t (ix1 i) = 0 + ∑ q : Fin 16384, Ideal.exp (t (ix2 i q)) := by
  unfold rowSumExp
  generalize hy : Host.exp (F := Ideal) (s := S16384x16384) (φ := .f32) t = y0
  simp only [Host.reduceAdd, Ideal.hostReduceAdd_def]
  have hR : S16384x16384.Reduces [1] S16384 := by decide
  rw [Ideal.hostReduceAdd_single reducesTo_S16384x16384_S16384_d1 hR, constant_apply, Ideal.ofBits_zero_f32]
  refine congrArg (0 + ·) (Finset.sum_congr rfl fun q _ => ?_)
  rw [liftRow hR i q, ← hy]
  rfl

/-- Over real entries the log-softmax entry is the entry minus the log of the row's sum of exponentials. -/
theorem rowLsm_real (s : (⟨S16384x16384, .f32⟩ : BufTy).Contents (Elt Ideal)) (L : Fin 16384 → Fin 16384 → ℝ)
    (hs : ∀ i j : Fin 16384, s (ix2 i j) = ((L i j : ℝ) : EReal)) (i j : Fin 16384) :
    rowLsm (F := Ideal) s (ix2 i j) = ((L i j - Real.log (∑ q : Fin 16384, Real.exp (L i q)) : ℝ) : EReal) := by
  obtain ⟨b, hb⟩ := rowMax_real s L hs i
  have hshift : ∀ q : Fin 16384, rowShift (F := Ideal) s (ix2 i q) = ((L i q : ℝ) : EReal) - (b : EReal) := fun q => by
    unfold rowShift
    refine (subf_apply _ _ _).trans ?_
    rw [colToMat_apply, vecToCol_apply, hb, hs]
  have hlog : Ideal.log (broadcastInDim S16384x1 ![0] bcast_S16384_S16384x1_0 (rowSumExp (F := Ideal) (rowShift (F := Ideal) s)) (ix2 i (0 : Fin 1)))
      = ((-b + Real.log (∑ q : Fin 16384, Real.exp (L i q)) : ℝ) : EReal) := by
    rw [vecToCol_apply, rowSumExp_apply]
    simp only [hshift]
    rw [zero_add]
    exact Cert.Lib.LogSumExp.log_sum_exp_shift Finset.univ ⟨i, Finset.mem_univ _⟩ (fun q => L i q) b
  unfold rowLsm
  refine (subf_apply _ _ _).trans ?_
  rw [hshift j, colToMat_apply]
  simp only [Host.log, Ideal.hostUnary_log_def]
  rw [hlog, ← EReal.coe_sub, ← EReal.coe_sub]
  refine congrArg (fun r : ℝ => (r : EReal)) ?_
  ring

/-! ## The same down the columns -/

/-- A column with the reduced coordinate put back. -/
theorem liftCol (h : S16384x16384.Reduces [0] S16384) (j : Fin 16384) (q : Fin 16384) : h.lift (ix1 j) q = ix2 q j :=
  funext fun c => Fin.ext (by match c with | ⟨0, _⟩ => rfl | ⟨1, _⟩ => rfl)

/-- The column maximum: the larger of minus infinity and the maximum from minus infinity of the column's entries. -/
theorem colMax_apply (s : (⟨S16384x16384, .f32⟩ : BufTy).Contents (Elt Ideal)) (j : Fin 16384) :
    colMax (F := Ideal) s (ix1 j) = max ⊥ ((Finset.univ : Finset (Fin 16384)).fold max ⊥ fun q => s (ix2 q j)) := by
  unfold colMax
  refine (maximumf_apply _ _ _).trans ?_
  rw [scalarToVec_apply, constant_apply, ofBits_negInf]
  have hR : S16384x16384.Reduces [0] S16384 := by decide
  refine congrArg (max ⊥) ?_
  refine (Host.reduce_eq_fold_single (α := Ideal .f32) (s := S16384x16384) (t := S16384) (FloatOps.maximumf (F := Ideal) (φ := .f32)) s _ reducesTo_S16384x16384_S16384_d0 hR h_S_ (ix1 j)).trans ?_
  rw [constant_apply, ofBits_negInf]
  exact congrArg (fun f => (Finset.univ : Finset (Fin 16384)).fold max ⊥ f) (funext fun q => congrArg s (liftCol hR j q))

/-- Over real entries the column maximum is a real number. -/
theorem colMax_real (s : (⟨S16384x16384, .f32⟩ : BufTy).Contents (Elt Ideal)) (L : Fin 16384 → Fin 16384 → ℝ)
    (hs : ∀ i j : Fin 16384, s (ix2 i j) = ((L i j : ℝ) : EReal)) (j : Fin 16384) :
    ∃ b : ℝ, colMax (F := Ideal) s (ix1 j) = (b : EReal) := by
  obtain ⟨b, hb⟩ := Cert.LseMath.fold_max_coe (n := 16384) (by norm_num) (fun q => L q j)
  refine ⟨b, ?_⟩
  rw [colMax_apply]
  simp only [hs]
  rw [hb]
  exact max_eq_right bot_le

/-- The column sum of exponentials: zero plus the sum over the column. -/
theorem colSumExp_apply (t : (⟨S16384x16384, .f32⟩ : BufTy).Contents (Elt Ideal)) (j : Fin 16384) :
    colSumExp (F := Ideal) t (ix1 j) = 0 + ∑ q : Fin 16384, Ideal.exp (t (ix2 q j)) := by
  unfold colSumExp
  generalize hy : Host.exp (F := Ideal) (s := S16384x16384) (φ := .f32) t = y0
  simp only [Host.reduceAdd, Ideal.hostReduceAdd_def]
  have hR : S16384x16384.Reduces [0] S16384 := by decide
  rw [Ideal.hostReduceAdd_single reducesTo_S16384x16384_S16384_d0 hR, constant_apply, Ideal.ofBits_zero_f32]
  refine congrArg (0 + ·) (Finset.sum_congr rfl fun q _ => ?_)
  rw [liftCol hR j q, ← hy]
  rfl

/-- Over real entries the log-softmax entry is the entry minus the log of the column's sum of exponentials. -/
theorem colLsm_real (s : (⟨S16384x16384, .f32⟩ : BufTy).Contents (Elt Ideal)) (L : Fin 16384 → Fin 16384 → ℝ)
    (hs : ∀ i j : Fin 16384, s (ix2 i j) = ((L i j : ℝ) : EReal)) (i j : Fin 16384) :
    colLsm (F := Ideal) s (ix2 i j) = ((L i j - Real.log (∑ q : Fin 16384, Real.exp (L q j)) : ℝ) : EReal) := by
  obtain ⟨b, hb⟩ := colMax_real s L hs j
  have hshift : ∀ q : Fin 16384, colShift (F := Ideal) s (ix2 q j) = ((L q j : ℝ) : EReal) - (b : EReal) := fun q => by
    unfold colShift
    refine (subf_apply _ _ _).trans ?_
    rw [rowToMat_apply, vecToRow_apply, hb, hs]
  have hlog : Ideal.log (broadcastInDim S1x16384 ![1] bcast_S16384_S1x16384_1 (colSumExp (F := Ideal) (colShift (F := Ideal) s)) (ix2 (0 : Fin 1) j))
      = ((-b + Real.log (∑ q : Fin 16384, Real.exp (L q j)) : ℝ) : EReal) := by
    rw [vecToRow_apply, colSumExp_apply]
    simp only [hshift]
    rw [zero_add]
    exact Cert.Lib.LogSumExp.log_sum_exp_shift Finset.univ ⟨j, Finset.mem_univ _⟩ (fun q => L q j) b
  unfold colLsm
  refine (subf_apply _ _ _).trans ?_
  rw [hshift i, rowToMat_apply]
  simp only [Host.log, Ideal.hostUnary_log_def]
  rw [hlog, ← EReal.coe_sub, ← EReal.coe_sub]
  refine congrArg (fun r : ℝ => (r : EReal)) ?_
  ring

/-! ## The index pairs -/

/-- A word below 16384 is itself as a natural number. -/
theorem toNat_ofNat_lt (k : Fin 16384) : (BitVec.ofNat 32 k.val).toNat = k.val := by
  rw [BitVec.toNat_ofNat]; exact Nat.mod_eq_of_lt (by have := k.isLt; omega)

/-- A word below 16384 is not negative as a signed integer. -/
theorem not_slt_zero (k : Fin 16384) : IntOp.cmpi .slt (BitVec.ofNat 32 k.val) 0#32 = 0#1 := by
  have h : (BitVec.ofNat 32 k.val).slt 0#32 = false := by
    rw [BitVec.slt, BitVec.toInt_eq_toNat_cond, toNat_ofNat_lt]
    have := k.isLt
    simp
    omega
  show BitVec.ofBool ((BitVec.ofNat 32 k.val).slt 0#32) = 0#1
  rw [h]; rfl

/-- A word below 16384, read as a signed integer and then as a natural number, is itself. -/
theorem toInt_toNat_lt (k : Fin 16384) : (BitVec.ofNat 32 k.val).toInt.toNat = k.val := by
  rw [BitVec.toInt_eq_toNat_cond, toNat_ofNat_lt, if_pos (by have := k.isLt; omega)]
  exact Int.toNat_natCast k.val

/-- The wrap of negative indices leaves the iota alone. -/
theorem wrapIdx_apply (k : Fin 16384) : wrapIdx (F := Ideal) (iotaV (F := Ideal)) (ix1 k) = BitVec.ofNat 32 k.val := by
  unfold wrapIdx
  refine (select_apply _ _ _ _).trans ?_
  have hc : cmpi .slt (iotaV (F := Ideal)) (broadcastInDim S16384 ![] bcast_S_S16384 (constantI S_ 32 0#32)) (ix1 k) = 0#1 := by
    show IntOp.cmpi .slt (iotaV (F := Ideal) (ix1 k)) (broadcastInDim S16384 ![] bcast_S_S16384 (constantI S_ 32 0#32) (ix1 k)) = 0#1
    rw [scalarToVec_apply]
    exact not_slt_zero k
  rw [hc, select_zero]
  rfl

/-- Both entries of index pair k are the word k. -/
theorem diagIdx_apply (k : Fin 16384) (c : Fin 2) : diagIdx (F := Ideal) (iotaV (F := Ideal)) (ix2 k c) = BitVec.ofNat 32 k.val := by
  unfold diagIdx
  generalize hcol : broadcastInDim S16384x1 ![0] bcast_S16384_S16384x1_0 (wrapIdx (F := Ideal) (iotaV (F := Ideal))) = col
  have hc : ∀ u : Fin 1, col (ix2 k u) = BitVec.ofNat 32 k.val := fun u => by rw [← hcol, vecToCol_apply, wrapIdx_apply]
  match c with
  | ⟨0, _⟩ =>
    exact (concatenate_pair_apply_left (1 : Fin S16384x2.rank) col col concatenates_S16384x1_S16384x1_S16384x2_d1 (ix2 k (0 : Fin 2)) rfl
      (ix2 k (0 : Fin 1)) (fun b => match b with | ⟨0, _⟩ => rfl | ⟨1, _⟩ => rfl)).trans (hc 0)
  | ⟨1, _⟩ =>
    exact (concatenate_pair_apply_right (1 : Fin S16384x2.rank) col col concatenates_S16384x1_S16384x1_S16384x2_d1 (ix2 k (1 : Fin 2)) rfl rfl
      (ix2 k (0 : Fin 1)) (fun b hb => match b, hb with | ⟨0, _⟩, _ => rfl | ⟨1, _⟩, hb => absurd rfl hb) rfl).trans (hc 0)

/-! ## The gather reads the diagonal -/

theorem ix1_val (k : Fin 16384) (x : Fin 1) : ((ix1 k : S16384.Idx) x).val = k.val := by
  match x with | ⟨0, _⟩ => rfl

/-- Row coordinate of the index-array position that result index k reads: k. -/
theorem siIdx_row (k : Fin 16384) (c : Fin gather_S16384x16384_S16384x2_S16384_n_01_n_n_01_1_11.startIndexMap.length) :
    ((gather_S16384x16384_S16384x2_S16384_n_01_n_n_01_1_11.siIdx (ix1 k) c) (0 : Fin 2)).val = k.val := by
  unfold GatherDims.siIdx
  rw [dif_neg (by decide)]
  unfold GatherDims.siCoord
  exact ix1_val k _

/-- With the index pairs (k, k) the gather reads the diagonal. -/
theorem gather_diag (v : (⟨S16384x16384, .f32⟩ : BufTy).Contents (Elt Ideal)) (idx : (⟨S16384x2, .i32⟩ : BufTy).Contents (Elt Ideal))
    (hidx : ∀ (k : Fin 16384) (c : Fin 2), idx (ix2 k c) = BitVec.ofNat 32 k.val) (k : Fin 16384) :
    Host.gather gather_S16384x16384_S16384x2_S16384_n_01_n_n_01_1_11 v idx (ix1 k) = v (ix2 k k) := by
  show v (gather_S16384x16384_S16384x2_S16384_n_01_n_n_01_1_11.operandIdx (ix1 k) idx) = v (ix2 k k)
  have hidx' : ∀ y : S16384x2.Idx, (y 0).val = k.val → idx y = BitVec.ofNat 32 k.val := fun y hy =>
    (congrArg idx (eq_ix2 y)).trans ((hidx (y 0) (y 1)).trans (congrArg (BitVec.ofNat 32) hy))
  have hk := k.isLt
  have hs0 : gather_S16384x16384_S16384x2_S16384_n_01_n_n_01_1_11.start (ix1 k) idx (0 : Fin 2) = k.val := by
    unfold GatherDims.start
    rw [dif_pos (by decide), hidx' _ (siIdx_row k _), toInt_toNat_lt]
    show min k.val (16384 - 1) = k.val
    omega
  have hs1 : gather_S16384x16384_S16384x2_S16384_n_01_n_n_01_1_11.start (ix1 k) idx (1 : Fin 2) = k.val := by
    unfold GatherDims.start
    rw [dif_pos (by decide), hidx' _ (siIdx_row k _), toInt_toNat_lt]
    show min k.val (16384 - 1) = k.val
    omega
  have ho0 : gather_S16384x16384_S16384x2_S16384_n_01_n_n_01_1_11.offCoord (ix1 k) (0 : Fin 2) = 0 := gather_S16384x16384_S16384x2_S16384_n_01_n_n_01_1_11.offCoord_eq_zero (ix1 k) 0 (by decide)
  have ho1 : gather_S16384x16384_S16384x2_S16384_n_01_n_n_01_1_11.offCoord (ix1 k) (1 : Fin 2) = 0 := gather_S16384x16384_S16384x2_S16384_n_01_n_n_01_1_11.offCoord_eq_zero (ix1 k) 1 (by decide)
  have hb : ∀ a : Fin 2, gather_S16384x16384_S16384x2_S16384_n_01_n_n_01_1_11.batchCoord (ix1 k) a = 0 := fun a =>
    gather_S16384x16384_S16384x2_S16384_n_01_n_n_01_1_11.batchCoord_eq_zero (ix1 k) a List.not_mem_nil
  refine congrArg v (funext fun a => Fin.ext ?_)
  show gather_S16384x16384_S16384x2_S16384_n_01_n_n_01_1_11.start (ix1 k) idx a + gather_S16384x16384_S16384x2_S16384_n_01_n_n_01_1_11.batchCoord (ix1 k) a + gather_S16384x16384_S16384x2_S16384_n_01_n_n_01_1_11.offCoord (ix1 k) a = (ix2 k k a).val
  rw [hb a]
  match a with
  | ⟨0, _⟩ => exact (congrArg₂ (· + 0 + ·) hs0 ho0)
  | ⟨1, _⟩ => exact (congrArg₂ (· + 0 + ·) hs1 ho1)

/-! ## The negated mean of the diagonal -/

/-- A sum over the indices of a vector is the sum over its coordinate. -/
theorem sum_idx1 {M : Type} [AddCommMonoid M] (g : S16384.Idx → M) : ∑ y : S16384.Idx, g y = ∑ k : Fin 16384, g (ix1 k) := by
  refine Fintype.sum_equiv ⟨fun y => y 0, ix1, fun y => (eq_ix1 y).symm, fun k => rfl⟩ _ _ (fun y => ?_)
  exact congrArg g (eq_ix1 y)

/-- Over a matrix whose diagonal is real, the negated mean of the diagonal. -/
theorem negMeanDiag_real (v : (⟨S16384x16384, .f32⟩ : BufTy).Contents (Elt Ideal)) (dg : Fin 16384 → ℝ)
    (hv : ∀ k : Fin 16384, v (ix2 k k) = ((dg k : ℝ) : EReal)) (z : S_.Idx) :
    negMeanDiag (F := Ideal) v (iotaV (F := Ideal)) z = ((-((∑ k : Fin 16384, dg k) / 16384) : ℝ) : EReal) := by
  unfold negMeanDiag
  generalize hg : Host.gather gather_S16384x16384_S16384x2_S16384_n_01_n_n_01_1_11 v (diagIdx (F := Ideal) (iotaV (F := Ideal))) = g
  have hgk : ∀ k : Fin 16384, g (ix1 k) = ((dg k : ℝ) : EReal) := fun k => by
    rw [← hg, gather_diag v _ diagIdx_apply k, hv]
  have hsum : Host.reduceAdd (F := Ideal) g (constant S_ .f32 0x00000000#32) reducesTo_S16384_S_d0 h_S_ z
      = ((∑ k : Fin 16384, dg k : ℝ) : EReal) := by
    simp only [Host.reduceAdd, Ideal.hostReduceAdd_def]
    rw [Ideal.hostReduceAdd_total reducesTo_S16384_S_d0 (fun b => b.elim0), constant_apply, Ideal.ofBits_zero_f32, zero_add,
      sum_idx1, Cert.Lib.LogSumExp.coe_finsum]
    exact Finset.sum_congr rfl fun k _ => hgk k
  simp only [Host.negf, Host.divf, Ideal.hostNegf_def, Ideal.negf_def, Ideal.hostDivf_def]
  rw [hsum, constant_apply, ofBits_16384, Ideal.div_coe (by norm_num), ← EReal.coe_mul, ← EReal.coe_neg]
  refine congrArg (fun r : ℝ => (r : EReal)) ?_
  ring

end Cert.RefSide

end
-- ==== Proof.KTail.lean ====
/-
  The kernel program's host lines after its region: their run, and their value over real data.

  After the region thirty-six host operations turn the region's two outputs and the two arguments into the result.
  The column output [16, 1, 16384] is re-laid as [16, 16384]; per column c the sixteen partial log-sum-exps are joined:
  their maximum b from minus infinity, then b + log (0 + Σ exp (part − b)). The diagonal scores are the row sums of the
  entrywise product of the two arguments, times one. Three means over 16384 follow — of the diagonal scores, of the row
  output, of the joined column values — and the result is (−mean₁ + ½ · mean₂) + ½ · mean₃.
  From ARBITRARY starting contents the operations leave the result buffer at `tailFn` of the four buffers they read.
  When the row output holds each row's log-sum-exp and the column output each row tile's partial log-sum-exp per column,
  over real arguments, that is the symmetric contrastive loss.
-/
import proofs.«160572_j54692113547585_2_alg».proof.Proof.Gen.KernelIdeal.Launch
import proofs.«160572_j54692113547585_2_alg».proof.Proof.KOut
import proofs.«160572_j54692113547585_2_alg».proof.Proof.RefRead
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx

section Staged
variable {F : FTy → Type} [FloatOps F]

/-- The column output re-laid as sixteen rows of partial values. -/
def tParts (a21 : (⟨S16x1x16384, .f32⟩ : BufTy).Contents (Elt F)) : (⟨S16x16384, .f32⟩ : BufTy).Contents (Elt F) :=
  shapeCast S16x16384 a21 shapeCasts_S16x1x16384_S16x16384

/-- Per column, the maximum of the sixteen partial values, from minus infinity. -/
def tMax (p : (⟨S16x16384, .f32⟩ : BufTy).Contents (Elt F)) : (⟨S16384, .f32⟩ : BufTy).Contents (Elt F) :=
  Host.reduce FloatOps.maximumf p (constant S_ .f32 0xFF800000#32) reducesTo_S16x16384_S16384_d0 h_S_

/-- Per column, the sixteen partial log-sum-exps joined: the maximum plus the log of the sum of shifted exponentials. -/
def tJoin (p : (⟨S16x16384, .f32⟩ : BufTy).Contents (Elt F)) : (⟨S16384, .f32⟩ : BufTy).Contents (Elt F) :=
  addf (tMax p) (Host.log (Host.reduceAdd (Host.exp (subf p (broadcastInDim S16x16384 ![0, 1] bcast_S1x16384_S16x16384_0_1 (broadcastInDim S1x16384 ![1] bcast_S16384_S1x16384_1 (tMax p))))) (constant S_ .f32 0x00000000#32) reducesTo_S16x16384_S16384_d0 h_S_))

/-- The diagonal scores: the row sums of the entrywise product of the two arguments, times one. -/
def tDiag (x0 x1 : (⟨S16384x512, .f32⟩ : BufTy).Contents (Elt F)) : (⟨S16384, .f32⟩ : BufTy).Contents (Elt F) :=
  mulf (Host.reduceAdd (mulf x0 x1) (constant S_ .f32 0x00000000#32) reducesTo_S16384x512_S16384_d1 h_S_) (broadcastInDim S16384 ![] bcast_S_S16384 (constant S_ .f32 0x3F800000#32))

/-- The mean of a vector of 16384 entries: summed from zero, divided by 16384. -/
def tMeanVec (v : (⟨S16384, .f32⟩ : BufTy).Contents (Elt F)) : (⟨S_, .f32⟩ : BufTy).Contents (Elt F) :=
  Host.divf (Host.reduceAdd v (constant S_ .f32 0x00000000#32) reducesTo_S16384_S_d0 h_S_) (constant S_ .f32 0x46800000#32)

/-- The mean of a column of 16384 entries. -/
def tMeanCol (a : (⟨S16384x1, .f32⟩ : BufTy).Contents (Elt F)) : (⟨S_, .f32⟩ : BufTy).Contents (Elt F) :=
  Host.divf (Host.reduceAdd a (constant S_ .f32 0x00000000#32) reducesTo_S16384x1_S_d0_1 h_S_) (constant S_ .f32 0x46800000#32)

/-- The result from the three means. -/
def tCombine (m1 m2 m3 : (⟨S_, .f32⟩ : BufTy).Contents (Elt F)) : (⟨S_, .f32⟩ : BufTy).Contents (Elt F) :=
  addf (addf (Host.negf m1) (mulf (constant S_ .f32 0x3F000000#32) m2)) (mulf (constant S_ .f32 0x3F000000#32) m3)

/-- The host lines after the region as a function of the four buffers they read, for any float values. -/
def tailF (a20 : (⟨S16384x1, .f32⟩ : BufTy).Contents (Elt F)) (a21 : (⟨S16x1x16384, .f32⟩ : BufTy).Contents (Elt F)) (x0 x1 : (⟨S16384x512, .f32⟩ : BufTy).Contents (Elt F)) : (⟨S_, .f32⟩ : BufTy).Contents (Elt F) :=
  tCombine (tMeanVec (tDiag x0 x1)) (tMeanCol a20) (tMeanVec (tJoin (tParts a21)))

/-- From arbitrary starting contents the thirty-six operations leave the result buffer at `tailF` of the four buffers they read. -/
theorem tailF_after (W : Valuation τ sig (Elt F)) :
    StableHlo.after (hostOps1 (F := F)) W (Proc.devRef .tc main_v26)
      = tailF (W (Proc.devRef .tc main_v2_0)) (W (Proc.devRef .tc main_v2_1)) (W (Proc.devRef .tc main_arg0)) (W (Proc.devRef .tc main_arg1)) := by
  after_results_simp <;> rfl

end Staged

/-- The host lines after the region as a function of the four buffers they read, built from small staged definitions. -/
def tailFn (a20 : (⟨S16384x1, .f32⟩ : BufTy).Contents (Elt Ideal)) (a21 : (⟨S16x1x16384, .f32⟩ : BufTy).Contents (Elt Ideal)) (x0 x1 : (⟨S16384x512, .f32⟩ : BufTy).Contents (Elt Ideal)) : (⟨S_, .f32⟩ : BufTy).Contents (Elt Ideal) :=
  tailF (F := Ideal) a20 a21 x0 x1

theorem tail_after (W : Valuation Cert.KernelIdeal.τ Cert.KernelIdeal.sig (Elt Ideal)) :
    StableHlo.after (Cert.KernelIdeal.Gen.hostOps1 (F := Ideal)) W (Proc.devRef .tc main_v26)
      = tailFn (W (Proc.devRef .tc main_v2_0)) (W (Proc.devRef .tc main_v2_1)) (W (Proc.devRef .tc main_arg0)) (W (Proc.devRef .tc main_arg1)) :=
  tailF_after (F := Ideal) W

/-! ## The layout operations of these lines at an index -/

/-- The column output re-laid: row tile it, column c. -/
theorem tParts_apply (a21 : (⟨S16x1x16384, .f32⟩ : BufTy).Contents (Elt Ideal)) (it : Fin 16) (c : Fin 16384) :
    tParts (F := Ideal) a21 (ix2 it c) = a21 (ix3 it (0 : Fin 1) c) :=
  shapeCast_apply a21 shapeCasts_S16x1x16384_S16x16384 (ix2 it c) (ix3 it (0 : Fin 1) c) (by
    rw [Shape.rowMajor_val_three, Shape.rowMajor_val_two]
    show (it.val * 1 + 0) * 16384 + c.val = it.val * 16384 + c.val
    omega)

/-- A column of the sixteen rows with the row coordinate put back. -/
theorem liftParts (h : S16x16384.Reduces [0] S16384) (c : Fin 16384) (it : Fin 16) : h.lift (ix1 c) it = ix2 it c :=
  funext fun a => Fin.ext (by match a with | ⟨0, _⟩ => rfl | ⟨1, _⟩ => rfl)

/-- A row of the [16384, 512] arrays with the column coordinate put back. -/
theorem liftArg (h : S16384x512.Reduces [1] S16384) (i : Fin 16384) (k : Fin 512) : h.lift (ix1 i) k = ix2 i k :=
  funext fun a => Fin.ext (by match a with | ⟨0, _⟩ => rfl | ⟨1, _⟩ => rfl)

/-- A sum over the indices of a column [16384, 1] is the sum over its rows. -/
theorem sum_idxCol {M : Type} [AddCommMonoid M] (g : S16384x1.Idx → M) :
    ∑ y : S16384x1.Idx, g y = ∑ r : Fin 16384, g (ix2 r (0 : Fin 1)) := by
  have hy : ∀ y : S16384x1.Idx, y = ix2 (y 0) (0 : Fin 1) := fun y => funext fun a => Fin.ext (by
    match a with
    | ⟨0, _⟩ => rfl
    | ⟨1, _⟩ =>
      have h1 : (y 1).val < 1 := (y 1).isLt
      show (y 1).val = 0
      omega)
  refine Fintype.sum_equiv ⟨fun y => y 0, fun r => ix2 r (0 : Fin 1), fun y => (hy y).symm, fun r => rfl⟩ _ _ (fun y => ?_)
  exact congrArg g (hy y)

/-! ## The joined column values -/

/-- The maximum of the sixteen partial values of column c, from minus infinity. -/
theorem tMax_apply (p : (⟨S16x16384, .f32⟩ : BufTy).Contents (Elt Ideal)) (c : Fin 16384) :
    tMax (F := Ideal) p (ix1 c) = (Finset.univ : Finset (Fin 16)).fold max ⊥ fun it => p (ix2 it c) := by
  unfold tMax
  have hR : S16x16384.Reduces [0] S16384 := by decide
  refine (Host.reduce_eq_fold_single (α := Ideal .f32) (s := S16x16384) (t := S16384) (FloatOps.maximumf (F := Ideal) (φ := .f32)) p _
    reducesTo_S16x16384_S16384_d0 hR h_S_ (ix1 c)).trans ?_
  rw [constant_apply, Cert.RefSide.ofBits_negInf]
  exact congrArg (fun f => (Finset.univ : Finset (Fin 16)).fold max ⊥ f) (funext fun it => congrArg p (liftParts hR c it))

/-- Over real partial values P the joined value of column c is the log of the sum of their exponentials. -/
theorem tJoin_real (p : (⟨S16x16384, .f32⟩ : BufTy).Contents (Elt Ideal)) (P : Fin 16 → Fin 16384 → ℝ)
    (hp : ∀ (it : Fin 16) (c : Fin 16384), p (ix2 it c) = ((P it c : ℝ) : EReal)) (c : Fin 16384) :
    tJoin (F := Ideal) p (ix1 c) = ((Real.log (∑ it : Fin 16, Real.exp (P it c)) : ℝ) : EReal) := by
  obtain ⟨b, hb⟩ := Cert.LseMath.fold_max_coe (n := 16) (by norm_num) (fun it => P it c)
  have hmax : tMax (F := Ideal) p (ix1 c) = (b : EReal) := by
    rw [tMax_apply]; simp only [hp]; exact hb
  have hR : S16x16384.Reduces [0] S16384 := by decide
  unfold tJoin
  refine (addf_apply _ _ _).trans ?_
  rw [hmax]
  simp only [Host.log, Ideal.hostUnary_log_def]
  generalize hy : Host.exp (F := Ideal) (s := S16x16384) (φ := .f32) (subf p (broadcastInDim S16x16384 ![0, 1] bcast_S1x16384_S16x16384_0_1
    (broadcastInDim S1x16384 ![1] bcast_S16384_S1x16384_1 (tMax (F := Ideal) p)))) = y0
  have hy0 : ∀ it : Fin 16, y0 (ix2 it c) = Ideal.exp (((P it c : ℝ) : EReal) - (b : EReal)) := fun it => by
    rw [← hy]
    simp only [Host.exp, Ideal.hostUnary_exp_def]
    refine congrArg Ideal.exp ((subf_apply _ _ _).trans ?_)
    rw [Cert.LibHostBroadcast.row_apply, Cert.LibHostBroadcast.vec_row_apply, hmax, hp]
  simp only [Host.reduceAdd, Ideal.hostReduceAdd_def]
  rw [Ideal.hostReduceAdd_single reducesTo_S16x16384_S16384_d0 hR, constant_apply, Ideal.ofBits_zero_f32, zero_add]
  have hsum : ∑ k : Fin 16, y0 (hR.lift (ix1 c) k) = ∑ it : Fin 16, Ideal.exp (((P it c : ℝ) : EReal) - (b : EReal)) :=
    Finset.sum_congr rfl fun k _ => by rw [liftParts hR c k]; exact hy0 k
  refine (congrArg (fun t => (b : EReal) + Ideal.log t) hsum).trans ?_
  exact Cert.LseMath.lse_of_shift (n := 16) (by norm_num) (fun it => P it c) b

/-- The sixteen partial log-sum-exps of a column, joined, are the column's log-sum-exp. -/
theorem join_parts (A B : Cert.ClipSpec.Mat) (c : Fin 16384) :
    Real.log (∑ it : Fin 16, Real.exp (part A B it.val c)) = Cert.ClipSpec.colLse A B c := by
  unfold Cert.ClipSpec.colLse part
  refine congrArg Real.log ?_
  rw [Cert.LseMath.sum_blocks (fun r => Real.exp (Cert.ClipSpec.logit A B r c)),
    ← Fin.sum_univ_eq_sum_range (fun t => ∑ q : Fin 1024, Real.exp (Cert.ClipSpec.logit A B (Cert.LseMath.at1024 t q) c)) 16]
  refine Finset.sum_congr rfl fun it _ => ?_
  exact Real.exp_log (Finset.sum_pos (fun q _ => Real.exp_pos _) Finset.univ_nonempty)

/-! ## The diagonal scores -/

/-- Over real arguments the diagonal scores are the real diagonal scores. -/
theorem tDiag_real (x0 x1 : (⟨S16384x512, .f32⟩ : BufTy).Contents (Elt Ideal)) (A B : Cert.ClipSpec.Mat)
    (hA : ∀ (i : Fin 16384) (k : Fin 512), x0 (ix2 i k) = ((A i k : ℝ) : EReal))
    (hB : ∀ (i : Fin 16384) (k : Fin 512), x1 (ix2 i k) = ((B i k : ℝ) : EReal)) (i : Fin 16384) :
    tDiag (F := Ideal) x0 x1 (ix1 i) = ((Cert.ClipSpec.logit A B i i : ℝ) : EReal) := by
  have hR : S16384x512.Reduces [1] S16384 := by decide
  unfold tDiag
  refine (mulf_apply _ _ _).trans ?_
  rw [broadcastInDim_apply _ bcast_S_S16384 _ (ix1 i) ix0 (fun a => a.elim0), constant_apply, Cert.RefSide.ofBits_one, mul_one]
  generalize hy : mulf (F := Ideal) (s := S16384x512) (φ := .f32) x0 x1 = y0
  have hy0 : ∀ k : Fin 512, y0 (ix2 i k) = ((A i k * B i k : ℝ) : EReal) := fun k => by
    rw [← hy, EReal.coe_mul, ← hA, ← hB]; rfl
  simp only [Host.reduceAdd, Ideal.hostReduceAdd_def]
  rw [Ideal.hostReduceAdd_single reducesTo_S16384x512_S16384_d1 hR, constant_apply, Ideal.ofBits_zero_f32, zero_add]
  rw [Cert.ClipSpec.logit, Cert.Lib.LogSumExp.coe_finsum]
  exact Finset.sum_congr rfl fun k _ => by rw [liftArg hR i k]; exact hy0 k

/-! ## The means -/

/-- The mean of a real vector. -/
theorem tMeanVec_real (v : (⟨S16384, .f32⟩ : BufTy).Contents (Elt Ideal)) (d : Fin 16384 → ℝ) (hv : ∀ i : Fin 16384, v (ix1 i) = ((d i : ℝ) : EReal)) (z : S_.Idx) :
    tMeanVec (F := Ideal) v z = (((∑ i : Fin 16384, d i) / 16384 : ℝ) : EReal) := by
  unfold tMeanVec
  have hsum : Host.reduceAdd (F := Ideal) v (constant S_ .f32 0x00000000#32) reducesTo_S16384_S_d0 h_S_ z
      = ((∑ i : Fin 16384, d i : ℝ) : EReal) := by
    simp only [Host.reduceAdd, Ideal.hostReduceAdd_def]
    rw [Ideal.hostReduceAdd_total reducesTo_S16384_S_d0 (fun b => b.elim0), constant_apply, Ideal.ofBits_zero_f32, zero_add,
      Cert.RefSide.sum_idx1, Cert.Lib.LogSumExp.coe_finsum]
    exact Finset.sum_congr rfl fun i _ => hv i
  simp only [Host.divf, Ideal.hostDivf_def]
  rw [hsum, constant_apply, Cert.RefSide.ofBits_16384, Ideal.div_coe (by norm_num), ← EReal.coe_mul]
  refine congrArg (fun r : ℝ => (r : EReal)) ?_
  ring

/-- The mean of a real column. -/
theorem tMeanCol_real (a : (⟨S16384x1, .f32⟩ : BufTy).Contents (Elt Ideal)) (d : Fin 16384 → ℝ)
    (ha : ∀ r : Fin 16384, a (ix2 r (0 : Fin 1)) = ((d r : ℝ) : EReal)) (z : S_.Idx) :
    tMeanCol (F := Ideal) a z = (((∑ r : Fin 16384, d r) / 16384 : ℝ) : EReal) := by
  unfold tMeanCol
  have hsum : Host.reduceAdd (F := Ideal) a (constant S_ .f32 0x00000000#32) reducesTo_S16384x1_S_d0_1 h_S_ z
      = ((∑ r : Fin 16384, d r : ℝ) : EReal) := by
    simp only [Host.reduceAdd, Ideal.hostReduceAdd_def]
    rw [Ideal.hostReduceAdd_total reducesTo_S16384x1_S_d0_1 (fun b => b.elim0), constant_apply, Ideal.ofBits_zero_f32, zero_add,
      sum_idxCol, Cert.Lib.LogSumExp.coe_finsum]
    exact Finset.sum_congr rfl fun r _ => ha r
  simp only [Host.divf, Ideal.hostDivf_def]
  rw [hsum, constant_apply, Cert.RefSide.ofBits_16384, Ideal.div_coe (by norm_num), ← EReal.coe_mul]
  refine congrArg (fun r : ℝ => (r : EReal)) ?_
  ring

/-! ## The value -/

/-- With the row output at each row's log-sum-exp and the column output at each row tile's partial log-sum-exp per
    column, over real arguments, the host lines after the region compute the loss. -/
theorem tail_value (A B : Cert.ClipSpec.Mat) (x0 x1 : (⟨S16384x512, .f32⟩ : BufTy).Contents (Elt Ideal))
    (hA : ∀ (i : Fin 16384) (k : Fin 512), x0 (ValueIdx.ix2 i k) = ((A i k : ℝ) : EReal))
    (hB : ∀ (i : Fin 16384) (k : Fin 512), x1 (ValueIdx.ix2 i k) = ((B i k : ℝ) : EReal)) :
    tailFn (G2 A B) (G3 A B) x0 x1 = fun _ => ((Cert.ClipSpec.loss A B : ℝ) : EReal) := by
  funext z
  have h1 := tMeanVec_real (tDiag (F := Ideal) x0 x1) (fun i => Cert.ClipSpec.logit A B i i) (tDiag_real x0 x1 A B hA hB) z
  have h2 := tMeanCol_real (G2 A B) (fun r => Cert.ClipSpec.rowLse A B r) (fun r => G2_apply A B r 0) z
  have h3 := tMeanVec_real (tJoin (F := Ideal) (tParts (F := Ideal) (G3 A B))) (fun c => Cert.ClipSpec.colLse A B c)
    (fun c => by
      rw [tJoin_real _ (fun it c => part A B it.val c) (fun it c => by rw [tParts_apply, G3_apply]) c, join_parts]) z
  unfold tailFn tailF tCombine
  refine (addf_apply _ _ _).trans ?_
  rw [addf_apply, mulf_apply, mulf_apply]
  simp only [Host.negf, Ideal.hostNegf_def, Ideal.negf_def]
  rw [h1, h2, h3, constant_apply, Cert.RefSide.ofBits_half, ← EReal.coe_neg, ← EReal.coe_mul, ← EReal.coe_mul, ← EReal.coe_add, ← EReal.coe_add]
  refine congrArg (fun r : ℝ => (r : EReal)) ?_
  unfold Cert.ClipSpec.loss
  ring

end Cert.KernelIdeal.KV

end
-- ==== Proof.KRun.lean ====
import proofs.«160572_j54692113547585_2_alg».proof.Proof.KArrays
import proofs.«160572_j54692113547585_2_alg».proof.Proof.KTail

set_option pp.maxSteps 20000
set_option pp.deepTerms false

noncomputable section

open Idealize.ShloMosaic Idealize.ShloMosaic.TcCoe Idealize.SL.Sem
open Idealize.ShloMosaic.Pipeline (Dat)

/-! The idealized kernel's run on real data: the host lines after the region read the two output arrays (the rows' and the
    tile-wise columns' log-sum-exps) and the two arguments, and leave the loss. -/

namespace Cert.KernelIdeal.KV

open Cert.KernelIdeal Cert.KernelIdeal.Gen Idealize.ShloMosaic.ValueIdx
open Cert.ClipSpec Cert.LseMath
open Idealize.ShloMosaic.Pipeline (Dat)

variable (m : (ℓ : Loc nD τ sig) → Buf (Elt Ideal) ℓ) (ρ : Dev nD → PrngReg)

/-- What the lines after the region leave in the result. -/
theorem tail_result (A B : Mat) (c : Dev nD) (hR : RealArgs m A B c) :
    Pipeline.afterTail₀ cfgs (dats m) 0 (V0 m) [hostOps1] c main_v26 = fun _ => ((loss A B : ℝ) : EReal) := by
  unfold Pipeline.afterTail₀
  show StableHlo.after hostOps1 _ (Proc.devRef .tc main_v26) = _
  rw [tail_after]
  have e20 : Pipeline.withArrays (cfgs 0).spec c (V0 m c) (fun w => (dats m 0 c).arrAt w (cfgs 0).N) (Proc.devRef .tc main_v2_0) = G2 A B :=
    (Pipeline.withArrays_arr spec0 launch0.win.arr_inj c _ _ 2).trans (final2 m A B c hR)
  have e21 : Pipeline.withArrays (cfgs 0).spec c (V0 m c) (fun w => (dats m 0 c).arrAt w (cfgs 0).N) (Proc.devRef .tc main_v2_1) = G3 A B :=
    (Pipeline.withArrays_arr spec0 launch0.win.arr_inj c _ _ 3).trans (final3 m A B c hR)
  have ea0 : Pipeline.withArrays (cfgs 0).spec c (V0 m c) (fun w => (dats m 0 c).arrAt w (cfgs 0).N) (Proc.devRef .tc main_arg0) = m ((c : Thread nD τ).loc main_arg0) :=
    (Pipeline.withArrays_of_ne _ c (V0 m c) _ main_arg0 (by exact (by decide : ∀ w, Pipeline.arrRef spec0 w ≠ main_arg0))).trans (V_main_arg0 m c)
  have ea1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  rw [e20, e21, ea0, ea1]
  exact tail_value A B _ _ hR.1 hR.2

/-- The run: the result at the loss of the real matrices the arguments hold, the arguments unchanged. -/
theorem kernel_run (A B : Dev nD → Mat) (hall : ∀ c, RealArgs m (A c) (B c) c) :
    θ_run defs (onTc (τ := τ) (main (F := Ideal))) ⟨m, fun _ => 0, ρ⟩ fun r => ∀ c : Dev nD,
      r.2.mem ((c.tc : Thread nD τ).loc main_v26) = (fun _ => ((loss (A c) (B c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v26 (Pipeline.mem_restRefs_of main_v26 (by decide) (by decide))).trans (tail_result m (A c) (B c) c (hall c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KV

end
-- ==== Proof.KFinite.lean ====
/-
  The precondition gives real arguments.

  The precondition says that every entry of each argument has absolute value below plus infinity. On the extended
  reals an entry x with max x (−x) < ⊤ is neither ⊤ nor ⊥, hence a real number. So under the precondition each
  argument is a real matrix, entry by entry.
-/
import proofs.«160572_j54692113547585_2_alg».proof.Defs
import proofs.«160572_j54692113547585_2_alg».proof.Proof.ClipSpec
import Idealize.ShloMosaic.Lib.ReduceAll
import Idealize.ShloMosaic.Lib.Affine
import Idealize.ShloMosaic.Lib.ValueIdx
import Idealize.ShloMosaic.PureOps.Ideal.Laws

noncomputable section

namespace Cert.KernelIdeal.KV

open Idealize.ShloMosaic Idealize.ShloMosaic.TcCoe Idealize.SL.Sem

/-- The scalar shape has one index. -/
instance subsingleton_scalarIdx : Subsingleton Cert.Pre_finite_inputs.S_.Idx := ⟨fun a b => funext fun d => d.elim0⟩

/-- The f32 word of plus infinity reads plus infinity. -/
theorem ofBits_posInf : Ideal.ofBits .f32 0x7F800000#32 = (⊤ : EReal) := by
  simp [Ideal.ofBits, Ideal.ieee]

theorem ofBool_eq_one (b : Bool) : BitVec.ofBool b = 1#1 ↔ b = true := by cases b <;> decide

/-- An extended real whose absolute value compares below plus infinity is a real number. -/
theorem real_of_abs_lt (x : EReal) (h : Ideal.cmp .olt (max x (-x)) ⊤ = 1#1) : ∃ r : ℝ, x = (r : EReal) := by
  have hlt : max x (-x) < ⊤ := by
    have h' : BitVec.ofBool (decide (max x (-x) < ⊤)) = 1#1 := h
    exact of_decide_eq_true ((ofBool_eq_one _).1 h')
  obtain ⟨hx, hnx⟩ := max_lt_iff.1 hlt
  have h1 : x ≠ ⊤ := ne_of_lt hx
  have h2 : x ≠ ⊥ := fun e => by rw [e, EReal.neg_bot] at hnx; exact lt_irrefl _ hnx
  exact ⟨x.toReal, (EReal.coe_toReal h1 h2).symm⟩

/-- Under the precondition both arguments are real matrices. -/
theorem real_args [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∃ A B : Cert.ClipSpec.Mat,
      (∀ (i : Fin 16384) (k : Fin 512), m ((c.tc : Thread Cert.KernelIdeal.nD Cert.KernelIdeal.τ).loc Cert.KernelIdeal.main_arg0) (ValueIdx.ix2 i k) = ((A i k : ℝ) : EReal))
      ∧ (∀ (i : Fin 16384) (k : Fin 512), m ((c.tc : Thread Cert.KernelIdeal.nD Cert.KernelIdeal.τ).loc Cert.KernelIdeal.main_arg1) (ValueIdx.ix2 i k) = ((B i k : ℝ) : EReal)) := by
  have e := congrFun (h c) ValueIdx.ix0
  dsimp only [Cert.Pre_finite_inputs.fn, andi] at e
  rw [IntOp.andi_eq_one] at e
  obtain ⟨e0, e1⟩ := e
  have r0 : ∀ (i : Fin 16384) (k : Fin 512), ∃ r : ℝ,
      m ((c.tc : Thread Cert.KernelIdeal.nD Cert.KernelIdeal.τ).loc Cert.KernelIdeal.main_arg0) (ValueIdx.ix2 i k) = (r : EReal) := fun i k => by
    have hk := Host.reduce_andi_all _ _ _ _ _ e0 (ValueIdx.ix2 i k)
    simp only [cmpf, Host.absf, broadcastInDim, constant, Ideal.cmpf_def, Ideal.hostAbsf_def, Ideal.absf_def, Ideal.ofBits_def] at hk
    rw [ofBits_posInf] at hk
    exact real_of_abs_lt _ hk
  have r1 : ∀ (i : Fin 16384) (k : Fin 512), ∃ r : ℝ,
      m ((c.tc : Thread Cert.KernelIdeal.nD Cert.KernelIdeal.τ).loc Cert.KernelIdeal.main_arg1) (ValueIdx.ix2 i k) = (r : EReal) := fun i k => by
    have hk := Host.reduce_andi_all _ _ _ _ _ e1 (ValueIdx.ix2 i k)
    simp only [cmpf, Host.absf, broadcastInDim, constant, Ideal.cmpf_def, Ideal.hostAbsf_def, Ideal.absf_def, Ideal.ofBits_def] at hk
    rw [ofBits_posInf] at hk
    exact real_of_abs_lt _ hk
  choose A hA using r0
  choose B hB using r1
  exact ⟨A, B, hA, hB⟩

end Cert.KernelIdeal.KV

end
-- ==== Proof.RefValue.lean ====
/-
  The reference's result: its run, and its value over real arguments.

  `refVal` is the reference's result as a function of its two argument arrays, on the extended reals. Every weakly
  fair execution of the reference ends with its result buffer at `refVal` of the arguments' launch contents. Over
  arguments that are real matrices A and B, `refVal` is the symmetric contrastive loss of A and B at every index:
  the score matrix is real; each log-softmax entry on the diagonal is the score minus the row's (column's) log of the
  sum of exponentials; the two negated means are the two cross-entropies; half their sum is the loss.
-/
import proofs.«160572_j54692113547585_2_alg».proof.Proof.RefRead

noncomputable section

namespace Cert.RefSide

open Idealize.ShloMosaic Idealize.ShloMosaic.TcCoe Idealize.SL.Sem Cert.ReferenceIdeal

/-- The reference's result as a function of its two argument arrays, built from small staged definitions. -/
def refVal (x0 x1 : (⟨S16384x512, .f32⟩ : BufTy).Contents (Elt Ideal)) : (⟨S_, .f32⟩ : BufTy).Contents (Elt Ideal) :=
  refValF (F := Ideal) x0 x1

/-- On every device, from any memory with zero counters: every weakly fair execution of the reference terminates with
    its result buffer at `refVal` of the two arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_gen (F := Ideal) m ρ

/-- Over real arguments the reference's result is the loss, at every index. -/
theorem refVal_eq (x0 x1 : (⟨S16384x512, .f32⟩ : BufTy).Contents (Elt Ideal)) (A B : Cert.ClipSpec.Mat)
    (hA : ∀ (i : Fin 16384) (k : Fin 512), x0 (ValueIdx.ix2 i k) = ((A i k : ℝ) : EReal))
    (hB : ∀ (i : Fin 16384) (k : Fin 512), x1 (ValueIdx.ix2 i k) = ((B i k : ℝ) : EReal)) :
    refVal x0 x1 = fun _ => ((Cert.ClipSpec.loss A B : ℝ) : EReal) := by
  funext z
  have hs := scores_real x0 x1 A B hA hB
  have h1 := negMeanDiag_real (rowLsm (F := Ideal) (scores (F := Ideal) x0 x1))
    (fun k => Cert.ClipSpec.logit A B k k - Cert.ClipSpec.rowLse A B k)
    (fun k => by rw [rowLsm_real _ (Cert.ClipSpec.logit A B) hs]; rfl) z
  have h2 := negMeanDiag_real (colLsm (F := Ideal) (scores (F := Ideal) x0 x1))
    (fun k => Cert.ClipSpec.logit A B k k - Cert.ClipSpec.colLse A B k)
    (fun k => by rw [colLsm_real _ (Cert.ClipSpec.logit A B) hs]; rfl) z
  unfold refVal refValF halfSum
  refine (ValueIdx.mulf_apply _ _ _).trans ?_
  rw [ValueIdx.addf_apply, h1, h2, ValueIdx.constant_apply, ofBits_half, ← EReal.coe_add, ← EReal.coe_mul]
  exact congrArg (fun r : ℝ => (r : EReal)) (Cert.ClipSpec.loss_of_cross_entropies A B)

end Cert.RefSide

end
-- ==== Proof.lean ====
/-
  The symmetric contrastive loss of two feature matrices, computed two ways, is one extended real.

  The kernel program rounds both matrices to the kernel's input format (the identity on the extended reals), runs one
  fused pass over 16 × 16 tiles of the 16384 × 16384 score matrix logit i j = Σ_k A i k · B j k — per row a streaming
  log-sum-exp carried across the column tiles (a running shift and a running sum of shifted exponentials), per tile
  and column the log-sum-exp of the tile's 1024 scores —, joins the 16 tile-wise column values of each column by
  another log-sum-exp on the host, and returns − mean_i logit i i + ½ mean_i rowLse i + ½ mean_j colLse j. The reference
  forms the whole score matrix, takes its log-softmax along the rows and along the columns, reads both diagonals, and
  returns the average of the two cross-entropies.

  Under the precondition every input entry is a real number, so every score is real; a log-sum-exp taken with ANY real
  shift is log Σ exp, so neither program's maxima have to be identified with anything — they only have to be real
  numbers; a sum over 16384 columns is the sum of its 16 blocks of 1024; and the two final expressions are the same
  real number because finite sums are linear. That number is `Cert.ClipSpec.loss A B`, and both programs end at it.
-/
import proofs.«160572_j54692113547585_2_alg».proof.Defs
import proofs.«160572_j54692113547585_2_alg».proof.Proof.Gen.Kernel
import proofs.«160572_j54692113547585_2_alg».proof.Proof.Gen.Kernel.Frame
import proofs.«160572_j54692113547585_2_alg».proof.Proof.Gen.KernelIdeal
import proofs.«160572_j54692113547585_2_alg».proof.Proof.Gen.KernelIdeal.Frame
import proofs.«160572_j54692113547585_2_alg».proof.Proof.Gen.ReferenceIdeal
import proofs.«160572_j54692113547585_2_alg».proof.Proof.Gen.Pre_finite_inputs
import proofs.«160572_j54692113547585_2_alg».proof.Proof.KRun
import proofs.«160572_j54692113547585_2_alg».proof.Proof.KFinite
import proofs.«160572_j54692113547585_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.RefSide.ref_run m ρ)

/-- The ideal pass rewrote nothing. -/
theorem preserves : Cert.preserves_Kernel_KernelIdeal := trivial

/-- Both programs end at the loss of the real matrices the arguments hold. -/
theorem algebraic : Cert.algebraic_KernelIdeal_ReferenceIdeal := by
  intro m ρ m' ρ' hpre hagree
  choose A B hA hB using fun c => Cert.KernelIdeal.KV.real_args m hpre c
  refine ⟨fun c => fun _ => ((Cert.ClipSpec.loss (A c) (B c) : ℝ) : EReal),
    Cert.KernelIdeal.KV.kernel_run m ρ A B (fun c => ⟨hA c, hB c⟩), ?_⟩
  refine (θ_run Cert.ReferenceIdeal.defs _ _).mono (fun _ h c => ⟨(h c).1.trans ?_, (h c).2⟩) (Cert.RefSide.ref_run m' ρ')
  exact Cert.RefSide.refVal_eq _ _ (A c) (B c)
    (fun i k => by rw [(hagree c).1]; exact hA c i k) (fun i k => by rw [(hagree c).2]; exact hB c i k)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
